-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x96 : Shape := ⟨2, ![100000, 96]⟩
abbrev S2x800000 : Shape := ⟨2, ![2, 800000]⟩
abbrev S800000 : Shape := ⟨1, ![800000]⟩
abbrev S96x96 : Shape := ⟨2, ![96, 96]⟩
abbrev S96 : Shape := ⟨1, ![96]⟩
abbrev S1x96 : Shape := ⟨2, ![1, 96]⟩
abbrev S1 : Shape := ⟨1, ![1]⟩
abbrev S_ : Shape := ⟨0, ![]⟩

class Facts : Prop where
  bcast_S_S100000x96 : S_.BroadcastsInDim S100000x96 (![] : Fin 0 → Fin S100000x96.rank)
  reducesTo_S100000x96_S_d0_1 : S100000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S1x96 : S_.BroadcastsInDim S1x96 (![] : Fin 0 → Fin S1x96.rank)
  reducesTo_S1x96_S_d0_1 : S1x96.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S96x96 .f32) (main_arg6 : FVec F S96 .f32) (main_arg7 : FVec F S1x96 .f32) (main_arg8 : FVec F S1 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S1x96 .f32 := Host.absf main_arg7
  let main_cst_10 : FVec F S_ .f32 := constant S_ .f32 0x7F800000#32
  let main_v30 : FVec F S1x96 .f32 := broadcastInDim S1x96 ![] bcast_S_S1x96 main_cst_10
  let main_v31 : IVec S1x96 1 := cmpf .olt main_v29 main_v30
  let main_c_11 : IVec S_ 1 := constantI S_ 1 1#1
  let main_v32 : IVec S_ 1 := (fun x v => Host.reduce IntOp.andi x v reducesTo_S1x96_S_d0_1 h_S_) main_v31 main_c_11
  let main_v33 : IVec S_ 1 := andi main_v28 main_v32
  fn_part2 (F := F) main_arg8 main_v33

def fn {F : FTy → Type} [FloatOps F] (main_arg0 : FVec F S100000x96 .f32) (main_arg1 : IVec S2x800000 32) (main_arg2 : FVec F S800000 .f32) (main_arg3 : FVec F S96x96 .f32) (main_arg4 : FVec F S96 .f32) (main_arg5 : FVec F S96x96 .f32) (main_arg6 : FVec F S96 .f32) (main_arg7 : FVec F S1x96 .f32) (main_arg8 : FVec F S1 .f32) : IVec S_ 1 :=
  let main_v0 : FVec F S100000x96 .f32 := Host.absf main_arg0
  let main_cst : FVec F S_ .f32 := constant S_ .f32 0x7F800000#32
  let main_v1 : FVec F S100000x96 .f32 := broadcastInDim S100000x96 ![] bcast_S_S100000x96 main_cst
  let main_v2 : IVec S100000x96 1 := cmpf .olt main_v0 main_v1
  let main_c : IVec S_ 1 := constantI S_ 1 1#1
  let main_v3 : IVec S_ 1 := (fun x v => Host.reduce IntOp.andi x v reducesTo_S100000x96_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x96 .f32 := Host.absf main_arg3
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_v13 main_v16
-- ==== Kernel.lean ====
abbrev S100000x96 : Shape := ⟨2, ![100000, 96]⟩
abbrev S2x800000 : Shape := ⟨2, ![2, 800000]⟩
abbrev S800000 : Shape := ⟨1, ![800000]⟩
abbrev S96x96 : Shape := ⟨2, ![96, 96]⟩
abbrev S96 : Shape := ⟨1, ![96]⟩
abbrev S1x96 : Shape := ⟨2, ![1, 96]⟩
abbrev S1 : Shape := ⟨1, ![1]⟩
abbrev S1x800000 : Shape := ⟨2, ![1, 800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S10000x96 : Shape := ⟨2, ![10000, 96]⟩
abbrev S900000x96 : Shape := ⟨2, ![900000, 96]⟩
abbrev S1x1 : Shape := ⟨2, ![1, 1]⟩
abbrev S100000x1 : Shape := ⟨2, ![100000, 1]⟩
abbrev S10000x1 : Shape := ⟨2, ![10000, 1]⟩
abbrev S96x1 : Shape := ⟨2, ![96, 1]⟩

abbrev nBuf : Space → Nat
  | .hbm => 90
  | .vmem => 18
  | .smem => 0
  | _ => 0

abbrev bufTy : (tb : Table) → Fin (tcTables nBuf tb) → BufTy
  | .hbm, ⟨0, _⟩ => ⟨S100000x96, .f32⟩
  | .hbm, ⟨1, _⟩ => ⟨S2x800000, .i32⟩
  | .hbm, ⟨2, _⟩ => ⟨S800000, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S1x96, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S100000, .i32⟩
  | .hbm, ⟨14, _⟩ => ⟨S900000, .i32⟩
  | .hbm, ⟨15, _⟩ => ⟨S900000, .i32⟩
  | .hbm, ⟨16, _⟩ => ⟨S_, .f32⟩
  | .hbm, ⟨17, _⟩ => ⟨S100000, .f32⟩
  | .hbm, ⟨18, _⟩ => ⟨S900000, .f32⟩
  | .hbm, ⟨19, _⟩ => ⟨S_, .f32⟩
  | .hbm, ⟨20, _⟩ => ⟨S100000, .f32⟩
  | .hbm, ⟨21, _⟩ => ⟨S900000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S900000, .i32⟩
  | .hbm, ⟨33, _⟩ => ⟨S900000, .i1⟩
  | .hbm, ⟨34, _⟩ => ⟨S_, .i32⟩
  | .hbm, ⟨35, _⟩ => ⟨S900000, .i32⟩
  | .hbm, ⟨36, _⟩ => ⟨S900000, .i32⟩
  | .hbm, ⟨37, _⟩ => ⟨S900000, .i32⟩
  | .hbm, ⟨38, _⟩ => ⟨S900000x1, .i32⟩
  | .hbm, ⟨39, _⟩ => ⟨S900000, .f32⟩
  | .hbm, ⟨40, _⟩ => ⟨S900000, .f32⟩
  | .hbm, ⟨41, _⟩ => ⟨S_, .i32⟩
  | .hbm, ⟨42, _⟩ => ⟨S900000, .i32⟩
  | .hbm, ⟨43, _⟩ => ⟨S900000, .i1⟩
  | .hbm, ⟨44, _⟩ => ⟨S_, .i32⟩
  | .hbm, ⟨45, _⟩ => ⟨S900000, .i32⟩
  | .hbm, ⟨46, _⟩ => ⟨S900000, .i32⟩
  | .hbm, ⟨47, _⟩ => ⟨S900000, .i32⟩
  | .hbm, ⟨48, _⟩ => ⟨S900000x1, .i32⟩
  | .hbm, ⟨49, _⟩ => ⟨S900000, .f32⟩
  | .hbm, ⟨50, _⟩ => ⟨S900000, .f32⟩
  | .hbm, ⟨51, _⟩ => ⟨S100000x96, .f32⟩
  | .hbm, ⟨52, _⟩ => ⟨S_, .i32⟩
  | .hbm, ⟨53, _⟩ => ⟨S900000, .i32⟩
  | .hbm, ⟨54, _⟩ => ⟨S900000, .i1⟩
  | .hbm, ⟨55, _⟩ => ⟨S_, .i32⟩
  | .hbm, ⟨56, _⟩ => ⟨S900000, .i32⟩
  | .hbm, ⟨57, _⟩ => ⟨S900000, .i32⟩
  | .hbm, ⟨58, _⟩ => ⟨S900000, .i32⟩
  | .hbm, ⟨59, _⟩ => ⟨S900000x1, .i32⟩
  | .hbm, ⟨60, _⟩ => ⟨S900000x96, .f32⟩
  | .hbm, ⟨61, _⟩ => ⟨S900000x1, .f32⟩
  | .hbm, ⟨62, _⟩ => ⟨S900000x96, .f32⟩
  | .hbm, ⟨63, _⟩ => ⟨S900000x96, .f32⟩
  | .hbm, ⟨64, _⟩ => ⟨S_, .f32⟩
  | .hbm, ⟨65, _⟩ => ⟨S100000x96, .f32⟩
  | .hbm, ⟨66, _⟩ => ⟨S900000x1, .i32⟩
  | .hbm, ⟨67, _⟩ => ⟨S100000x96, .f32⟩
  | .hbm, ⟨68, _⟩ => ⟨S1x96, .f32⟩
  | .hbm, ⟨69, _⟩ => ⟨S100000x96, .f32⟩
  | .hbm, ⟨70, _⟩ => ⟨S_, .i32⟩
  | .hbm, ⟨71, _⟩ => ⟨S900000, .i32⟩
  | .hbm, ⟨72, _⟩ => ⟨S900000, .i1⟩
  | .hbm, ⟨73, _⟩ => ⟨S_, .i32⟩
  | .hbm, ⟨74, _⟩ => ⟨S900000, .i32⟩
  | .hbm, ⟨75, _⟩ => ⟨S900000, .i32⟩
  | .hbm, ⟨76, _⟩ => ⟨S900000, .i32⟩
  | .hbm, ⟨77, _⟩ => ⟨S900000x1, .i32⟩
  | .hbm, ⟨78, _⟩ => ⟨S900000x96, .f32⟩
  | .hbm, ⟨79, _⟩ => ⟨S900000x1, .f32⟩
  | .hbm, ⟨80, _⟩ => ⟨S900000x96, .f32⟩
  | .hbm, ⟨81, _⟩ => ⟨S900000x96, .f32⟩
  | .hbm, ⟨82, _⟩ => ⟨S_, .f32⟩
  | .hbm, ⟨83, _⟩ => ⟨S100000x96, .f32⟩
  | .hbm, ⟨84, _⟩ => ⟨S900000x1, .i32⟩
  | .hbm, ⟨85, _⟩ => ⟨S100000x96, .f32⟩
  | .hbm, ⟨86, _⟩ => ⟨S1x96, .f32⟩
  | .hbm, ⟨87, _⟩ => ⟨S1x1, .f32⟩
  | .hbm, ⟨88, _⟩ => ⟨S100000x1, .f32⟩
  | .hbm, ⟨89, _⟩ => ⟨S100000, .f32⟩
  | .local _ .vmem, ⟨0, _⟩ => ⟨S10000x96, .f32⟩
  | .local _ .vmem, ⟨1, _⟩ => ⟨S10000x96, .f32⟩
  | .local _ .vmem, ⟨2, _⟩ => ⟨S96x96, .f32⟩
  | .local _ .vmem, ⟨3, _⟩ => ⟨S10000x96, .f32⟩
  | .local _ .vmem, ⟨4, _⟩ => ⟨S10000x96, .f32⟩
  | .local _ .vmem, ⟨5, _⟩ => ⟨S10000x96, .f32⟩
  | .local _ .vmem, ⟨6, _⟩ => ⟨S10000x96, .f32⟩
  | .local _ .vmem, ⟨7, _⟩ => ⟨S1x96, .f32⟩
  | .local _ .vmem, ⟨8, _⟩ => ⟨S96x96, .f32⟩
  | .local _ .vmem, ⟨9, _⟩ => ⟨S10000x96, .f32⟩
  | .local _ .vmem, ⟨10, _⟩ => ⟨S10000x96, .f32⟩
  | .local _ .vmem, ⟨11, _⟩ => ⟨S10000x96, .f32⟩
  | .local _ .vmem, ⟨12, _⟩ => ⟨S10000x96, .f32⟩
  | .local _ .vmem, ⟨13, _⟩ => ⟨S1x96, .f32⟩
  | .local _ .vmem, ⟨14, _⟩ => ⟨S1x96, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S100000 : S_.BroadcastsInDim S100000 (![] : Fin 0 → Fin S100000.rank)
  bcast_S900000_S900000x1_0 : S900000.BroadcastsInDim S900000x1 (![0] : Fin 1 → Fin S900000x1.rank)
  bcast_S_S900000 : S_.BroadcastsInDim S900000 (![] : Fin 0 → Fin S900000.rank)
  inb_S10000x96_S10000x96_0_0 : ∀ a, (![0, 0] : Fin 2 → Nat) a + S10000x96.size a ≤ S10000x96.size a
  h_S10000x96 : 0 < S10000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  transposes_S96x96_p1_0_S96x96 : S96x96.Transposes [1, 0] S96x96
  bcast_S900000x1_S900000x96_0_1 : S900000x1.BroadcastsInDim S900000x96 (![0, 1] : Fin 2 → Fin S900000x96.rank)
  bcast_S_S100000x96 : S_.BroadcastsInDim S100000x96 (![] : Fin 0 → Fin S100000x96.rank)
  shapeCasts_S96_S1x96 : S96.ShapeCasts S1x96
  shapeCasts_S10000x96_S10000x96 : S10000x96.ShapeCasts S10000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S10000x96 : S1x96.Broadcasts S10000x96
  shapeCasts_S1_S1x1 : S1.ShapeCasts S1x1
  transposes_S1x96_p1_0_S96x1 : S1x96.Transposes [1, 0] S96x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x96_S96x96_S10000x96_1_0_0_1_n_n_wf : DotDims.WF S10000x96 S96x96 S10000x96 [1] [0] [0] [1] [] []
  gather_S100000x96_S900000x1_S900000x96_1_0_n_n_0_1_196_wf : GatherDims.WF S100000x96 S900000x1 S900000x96 [1] [0] [] [0] [] 1 ![1, 96]
  scatter_S100000x96_S900000x1_S900000x96_1_0_0_1_wf : ScatterDims.WF S100000x96 S900000x1 S900000x96 [1] [0] [0] 1
  dot_S10000x96_S96x1_S10000x1_1_0_0_1_n_n_wf : DotDims.WF S10000x96 S96x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x96.size a ≤ S100000x96.size a
  hwx0_0 : ∀ i : grid0.Coords, EltTy.bits .f32 = 32 ∨ (Rect.block (s := S100000x96) S10000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x96.size a ≤ S100000x96.size a
  hwx0_2 : ∀ i : grid0.Coords, EltTy.bits .f32 = 32 ∨ (Rect.block (s := S100000x96) S10000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S100000x96.size a
  hwx1_0 : ∀ i : grid1.Coords, EltTy.bits .f32 = 32 ∨ (Rect.block (s := S100000x96) S10000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x96.size a ≤ S100000x96.size a
  hwx1_3 : ∀ i : grid1.Coords, EltTy.bits .f32 = 32 ∨ (Rect.block (s := S100000x96) S10000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x96.size a ≤ S100000x96.size a
  hwx2_0 : ∀ i : grid2.Coords, EltTy.bits .f32 = 32 ∨ (Rect.block (s := S100000x96) S10000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x96_S96x96_S10000x96_1_0_0_1_n_n : DotDims S10000x96 S96x96 S10000x96 where
  lhsContracting := [1]
  rhsContracting := [0]
  lhsNonContracting := [0]
  rhsNonContracting := [1]
  lhsBatch := []
  rhsBatch := []
  wf := dot_S10000x96_S96x96_S10000x96_1_0_0_1_n_n_wf
def gather_S100000x96_S900000x1_S900000x96_1_0_n_n_0_1_196 : GatherDims S100000x96 S900000x1 S900000x96 where
  offsetDims := [1]
  collapsedSliceDims := [0]
  operandBatchingDims := []
  startIndicesBatchingDims := []
  startIndexMap := [0]
  indexVectorDim := 1
  sliceSizes := ![1, 96]
  wf := gather_S100000x96_S900000x1_S900000x96_1_0_n_n_0_1_196_wf
def scatter_S100000x96_S900000x1_S900000x96_1_0_0_1 : ScatterDims S100000x96 S900000x1 S900000x96 where
  updateWindowDims := [1]
  insertedWindowDims := [0]
  scatterDimsToOperandDims := [0]
  indexVectorDim := 1
  wf := scatter_S100000x96_S900000x1_S900000x96_1_0_0_1_wf
def dot_S10000x96_S96x1_S10000x1_1_0_0_1_n_n : DotDims S10000x96 S96x1 S10000x1 where
  lhsContracting := [1]
  rhsContracting := [0]
  lhsNonContracting := [0]
  rhsNonContracting := [1]
  lhsBatch := []
  rhsBatch := []
  wf := dot_S10000x96_S96x1_S10000x1_1_0_0_1_n_n_wf

abbrev win0_0 : Pipeline.Window sig grid0 :=
  Pipeline.Window.ofSpec (Memref.whole main_arg0) S10000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x96 : Shape := ⟨2, ![100000, 96]⟩
abbrev S2x800000 : Shape := ⟨2, ![2, 800000]⟩
abbrev S800000 : Shape := ⟨1, ![800000]⟩
abbrev S96x96 : Shape := ⟨2, ![96, 96]⟩
abbrev S96 : Shape := ⟨1, ![96]⟩
abbrev S1x96 : Shape := ⟨2, ![1, 96]⟩
abbrev S1 : Shape := ⟨1, ![1]⟩
abbrev S1x800000 : Shape := ⟨2, ![1, 800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S900000x96 : Shape := ⟨2, ![900000, 96]⟩
abbrev S96x1 : Shape := ⟨2, ![96, 1]⟩
abbrev S100000x1 : Shape := ⟨2, ![100000, 1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x96, .f32⟩
  | 1 => ⟨S2x800000, .i32⟩
  | 2 => ⟨S800000, .f32⟩
  | 3 => ⟨S96x96, .f32⟩
  | 4 => ⟨S96, .f32⟩
  | 5 => ⟨S96x96, .f32⟩
  | 6 => ⟨S96, .f32⟩
  | 7 => ⟨S1x96, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S96x96, .f32⟩
  | 14 => ⟨S100000x96, .f32⟩
  | 15 => ⟨S100000, .i32⟩
  | 16 => ⟨S900000, .i32⟩
  | 17 => ⟨S900000, .i32⟩
  | 18 => ⟨S_, .f32⟩
  | 19 => ⟨S100000, .f32⟩
  | 20 => ⟨S900000, .f32⟩
  | 21 => ⟨S_, .f32⟩
  | 22 => ⟨S100000, .f32⟩
  | 23 => ⟨S900000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S900000, .i32⟩
  | 35 => ⟨S900000, .i1⟩
  | 36 => ⟨S_, .i32⟩
  | 37 => ⟨S900000, .i32⟩
  | 38 => ⟨S900000, .i32⟩
  | 39 => ⟨S900000, .i32⟩
  | 40 => ⟨S900000x1, .i32⟩
  | 41 => ⟨S900000, .f32⟩
  | 42 => ⟨S900000, .f32⟩
  | 43 => ⟨S_, .i32⟩
  | 44 => ⟨S900000, .i32⟩
  | 45 => ⟨S900000, .i1⟩
  | 46 => ⟨S_, .i32⟩
  | 47 => ⟨S900000, .i32⟩
  | 48 => ⟨S900000, .i32⟩
  | 49 => ⟨S900000, .i32⟩
  | 50 => ⟨S900000x1, .i32⟩
  | 51 => ⟨S900000, .f32⟩
  | 52 => ⟨S900000, .f32⟩
  | 53 => ⟨S_, .i32⟩
  | 54 => ⟨S900000, .i32⟩
  | 55 => ⟨S900000, .i1⟩
  | 56 => ⟨S_, .i32⟩
  | 57 => ⟨S900000, .i32⟩
  | 58 => ⟨S900000, .i32⟩
  | 59 => ⟨S900000, .i32⟩
  | 60 => ⟨S900000x1, .i32⟩
  | 61 => ⟨S900000x96, .f32⟩
  | 62 => ⟨S900000x1, .f32⟩
  | 63 => ⟨S900000x96, .f32⟩
  | 64 => ⟨S900000x96, .f32⟩
  | 65 => ⟨S_, .f32⟩
  | 66 => ⟨S100000x96, .f32⟩
  | 67 => ⟨S900000x1, .i32⟩
  | 68 => ⟨S100000x96, .f32⟩
  | 69 => ⟨S1x96, .f32⟩
  | 70 => ⟨S100000x96, .f32⟩
  | 71 => ⟨S100000x96, .f32⟩
  | 72 => ⟨S_, .f32⟩
  | 73 => ⟨S100000x96, .f32⟩
  | 74 => ⟨S100000x96, .f32⟩
  | 75 => ⟨S96x96, .f32⟩
  | 76 => ⟨S100000x96, .f32⟩
  | 77 => ⟨S100000, .i32⟩
  | 78 => ⟨S900000, .i32⟩
  | 79 => ⟨S900000, .i32⟩
  | 80 => ⟨S_, .f32⟩
  | 81 => ⟨S100000, .f32⟩
  | 82 => ⟨S900000, .f32⟩
  | 83 => ⟨S_, .f32⟩
  | 84 => ⟨S100000, .f32⟩
  | 85 => ⟨S900000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S900000, .i32⟩
  | 97 => ⟨S900000, .i1⟩
  | 98 => ⟨S_, .i32⟩
  | 99 => ⟨S900000, .i32⟩
  | 100 => ⟨S900000, .i32⟩
  | 101 => ⟨S900000, .i32⟩
  | 102 => ⟨S900000x1, .i32⟩
  | 103 => ⟨S900000, .f32⟩
  | 104 => ⟨S900000, .f32⟩
  | 105 => ⟨S_, .i32⟩
  | 106 => ⟨S900000, .i32⟩
  | 107 => ⟨S900000, .i1⟩
  | 108 => ⟨S_, .i32⟩
  | 109 => ⟨S900000, .i32⟩
  | 110 => ⟨S900000, .i32⟩
  | 111 => ⟨S900000, .i32⟩
  | 112 => ⟨S900000x1, .i32⟩
  | 113 => ⟨S900000, .f32⟩
  | 114 => ⟨S900000, .f32⟩
  | 115 => ⟨S_, .i32⟩
  | 116 => ⟨S900000, .i32⟩
  | 117 => ⟨S900000, .i1⟩
  | 118 => ⟨S_, .i32⟩
  | 119 => ⟨S900000, .i32⟩
  | 120 => ⟨S900000, .i32⟩
  | 121 => ⟨S900000, .i32⟩
  | 122 => ⟨S900000x1, .i32⟩
  | 123 => ⟨S900000x96, .f32⟩
  | 124 => ⟨S900000x1, .f32⟩
  | 125 => ⟨S900000x96, .f32⟩
  | 126 => ⟨S900000x96, .f32⟩
  | 127 => ⟨S_, .f32⟩
  | _ => ⟨S100000x96, .f32⟩

abbrev hbmTy0_1 (i : Nat) : BufTy := match i % 128 with
  | 0 => ⟨S100000x96, .f32⟩
  | 1 => ⟨S900000x1, .i32⟩
  | 2 => ⟨S100000x96, .f32⟩
  | 3 => ⟨S1x96, .f32⟩
  | 4 => ⟨S100000x96, .f32⟩
  | 5 => ⟨S100000x96, .f32⟩
  | 6 => ⟨S_, .f32⟩
  | 7 => ⟨S100000x96, .f32⟩
  | 8 => ⟨S100000x96, .f32⟩
  | 9 => ⟨S96x1, .f32⟩
  | 10 => ⟨S100000x1, .f32⟩
  | 11 => ⟨S1x1, .f32⟩
  | 12 => ⟨S100000x1, .f32⟩
  | 13 => ⟨S100000x1, .f32⟩
  | 14 => ⟨S100000, .f32⟩
  | _ => ⟨S100000x96, .f32⟩

abbrev hbmTy (i : Nat) : BufTy := match i / 128 with
  | 0 => hbmTy0_0 i
  | 1 => hbmTy0_1 i
  | _ => ⟨S100000x96, .f32⟩

abbrev bufTy : (tb : Table) → Fin (tcTables nBuf tb) → BufTy
  | .hbm, ⟨i, _⟩ => hbmTy i
  | _, _ => ⟨S100000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_c_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_c_18 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_19 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_call3_cst : Ref sig .tc := ⟨.hbm, 134, rfl⟩
abbrev main_call3_v0 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S96x96_S96x96_1_0 : S96x96.Transposes [1, 0] S96x96
  concatenates_S800000_S100000_S900000_d0 : Shape.Concatenates [S800000, S100000] S900000 0
  bcast_S_S100000 : S_.BroadcastsInDim S100000 (![] : Fin 0 → Fin S100000.rank)
  bcast_S900000_S900000x1_0 : S900000.BroadcastsInDim S900000x1 (![0] : Fin 1 → Fin S900000x1.rank)
  bcast_S_S900000 : S_.BroadcastsInDim S900000 (![] : Fin 0 → Fin S900000.rank)
  bcast_S900000x1_S900000x96_0_1 : S900000x1.BroadcastsInDim S900000x96 (![0, 1] : Fin 2 → Fin S900000x96.rank)
  bcast_S_S100000x96 : S_.BroadcastsInDim S100000x96 (![] : Fin 0 → Fin S100000x96.rank)
  bcast_S96_S1x96_1 : S96.BroadcastsInDim S1x96 (![1] : Fin 1 → Fin S1x96.rank)
  bcast_S1x96_S100000x96_0_1 : S1x96.BroadcastsInDim S100000x96 (![0, 1] : Fin 2 → Fin S100000x96.rank)
  transposes_S1x96_S96x1_1_0 : S1x96.Transposes [1, 0] S96x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x96_S96x96_S100000x96_1_0_0_1_n_n_wf : DotDims.WF S100000x96 S96x96 S100000x96 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x96_S900000x1_S900000x96_1_0_n_n_0_1_196_wf : GatherDims.WF S100000x96 S900000x1 S900000x96 [1] [0] [] [0] [] 1 ![1, 96]
  scatter_S100000x96_S900000x1_S900000x96_1_0_0_1_wf : ScatterDims.WF S100000x96 S900000x1 S900000x96 [1] [0] [0] 1
  dot_S100000x96_S96x1_S100000x1_1_0_0_1_n_n_wf : DotDims.WF S100000x96 S96x1 S100000x1 [1] [0] [0] [1] [] []

variable [Facts₀]

def dot_S100000x96_S96x96_S100000x96_1_0_0_1_n_n : DotDims S100000x96 S96x96 S100000x96 where
  lhsContracting := [1]
  rhsContracting := [0]
  lhsNonContracting := [0]
  rhsNonContracting := [1]
  lhsBatch := []
  rhsBatch := []
  wf := dot_S100000x96_S96x96_S100000x96_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x96_S900000x1_S900000x96_1_0_n_n_0_1_196 : GatherDims S100000x96 S900000x1 S900000x96 where
  offsetDims := [1]
  collapsedSliceDims := [0]
  operandBatchingDims := []
  startIndicesBatchingDims := []
  startIndexMap := [0]
  indexVectorDim := 1
  sliceSizes := ![1, 96]
  wf := gather_S100000x96_S900000x1_S900000x96_1_0_n_n_0_1_196_wf
def scatter_S100000x96_S900000x1_S900000x96_1_0_0_1 : ScatterDims S100000x96 S900000x1 S900000x96 where
  updateWindowDims := [1]
  insertedWindowDims := [0]
  scatterDimsToOperandDims := [0]
  indexVectorDim := 1
  wf := scatter_S100000x96_S900000x1_S900000x96_1_0_0_1_wf
def dot_S100000x96_S96x1_S100000x1_1_0_0_1_n_n : DotDims S100000x96 S96x1 S100000x1 where
  lhsContracting := [1]
  rhsContracting := [0]
  lhsNonContracting := [0]
  rhsNonContracting := [1]
  lhsBatch := []
  rhsBatch := []
  wf := dot_S100000x96_S96x1_S100000x1_1_0_0_1_n_n_wf

class Facts : Prop extends Facts₀ where

variable [Facts]
-- ==== Proof.GcnSpec.lean ====
/-
  Two graph-convolution layers and a linear read-out, as one function of the nine arguments.

  The graph part is shared by both programs and is never opened here. From the edge list and the edge weights the
  programs build, with a self loop of weight one appended per node, the source and target node of every edge
  (`val_main_v7`, `val_main_v8` of the reference's stages) and the symmetric normalisation coefficient of every edge
  (`val_main_v33`). `aggregate` gathers the rows of a feature array at the edges' sources (a negative index wrapped
  once by the node count), scales each by its edge's coefficient, and sums them at the edges' targets.
  A layer is `dense` (the features times the transposed weights), `aggregate`, then `biasRelu` (the bias row added to
  every row, and the maximum with zero); `readout` is a last product with the transposed head weights plus the head's
  bias, laid out as a vector. The reference program computes `net` of its arguments.
-/
import proofs.«110475_j50139448213989_1_alg».proof.Proof.Gen.ReferenceIdeal.Read

set_option maxRecDepth 16384

noncomputable section

namespace Cert.Gcn

open Cert.ReferenceIdeal Cert.ReferenceIdeal.Gen Cert.ReferenceIdeal.Read Idealize.ShloMosaic Idealize.ShloMosaic.TcCoe

/-- Gather at the sources, scale by the edge coefficients, sum at the targets: the graph data given as arrays. -/
def aggregateAt (xt : (⟨S100000x96, .f32⟩ : BufTy).Contents (Elt Ideal)) (src dst : (⟨S900000, .i32⟩ : BufTy).Contents (Elt Ideal))
    (coef : (⟨S900000, .f32⟩ : BufTy).Contents (Elt Ideal)) : (⟨S100000x96, .f32⟩ : BufTy).Contents (Elt Ideal) :=
  Host.scatterAdd scatter_S100000x96_S900000x1_S900000x96_1_0_0_1
    (broadcastInDim S100000x96 ![] bcast_S_S100000x96 (constant (F := Ideal) S_ .f32 0x00000000#32))
    (broadcastInDim S900000x1 ![0] bcast_S900000_S900000x1_0 dst)
    (mulf
      (Host.gather gather_S100000x96_S900000x1_S900000x96_1_0_n_n_0_1_196 xt
        (broadcastInDim S900000x1 ![0] bcast_S900000_S900000x1_0
          (select (cmpi .slt src (broadcastInDim S900000 ![] bcast_S_S900000 (constantI S_ 32 0#32)))
            (addi src (broadcastInDim S900000 ![] bcast_S_S900000 (constantI S_ 32 100000#32))) src)))
      (broadcastInDim S900000x96 ![0, 1] bcast_S900000x1_S900000x96_0_1
        (broadcastInDim S900000x1 ![0] bcast_S900000_S900000x1_0 coef)))

/-- The same with the graph data computed from the edge list `ei` and the edge weights `ew`. -/
def aggregate (xt : (⟨S100000x96, .f32⟩ : BufTy).Contents (Elt Ideal)) (ei : (⟨S2x800000, .i32⟩ : BufTy).Contents (Elt Ideal))
    (ew : (⟨S800000, .f32⟩ : BufTy).Contents (Elt Ideal)) : (⟨S100000x96, .f32⟩ : BufTy).Contents (Elt Ideal) :=
  aggregateAt xt (val_main_v7 ei) (val_main_v8 ei) (val_main_v33 ei ew)

/-- The features times the transposed square weights. -/
def dense (A : (⟨S100000x96, .f32⟩ : BufTy).Contents (Elt Ideal)) (W : (⟨S96x96, .f32⟩ : BufTy).Contents (Elt Ideal)) :
    (⟨S100000x96, .f32⟩ : BufTy).Contents (Elt Ideal) :=
  Host.dotGeneral (F := Ideal) (φ₁ := .f32) (φ₂ := .f32) dot_S100000x96_S96x96_S100000x96_1_0_0_1_n_n none A (val_main_v4 W)

/-- The bias added to every row, then the maximum with zero. -/
def biasRelu (A : (⟨S100000x96, .f32⟩ : BufTy).Contents (Elt Ideal)) (b : (⟨S96, .f32⟩ : BufTy).Contents (Elt Ideal)) :
    (⟨S100000x96, .f32⟩ : BufTy).Contents (Elt Ideal) :=
  maximumf (addf A (val_main_v48 b)) (val_main_call1_v0 (F := Ideal))

/-- The head: the features times the transposed head weights, plus the head's bias, as a vector over the nodes. -/
def readout (A : (⟨S100000x96, .f32⟩ : BufTy).Contents (Elt Ideal)) (w : (⟨S1x96, .f32⟩ : BufTy).Contents (Elt Ideal))
    (b : (⟨S1, .f32⟩ : BufTy).Contents (Elt Ideal)) : (⟨S100000, .f32⟩ : BufTy).Contents (Elt Ideal) :=
  shapeCast _ (addf (Host.dotGeneral (F := Ideal) (φ₁ := .f32) (φ₂ := .f32) dot_S100000x96_S96x1_S100000x1_1_0_0_1_n_n none A (val_main_v98 w)) (val_main_v101 b))
    shapeCasts_S100000x1_S100000

/-- The whole network. -/
def net (x0 : (⟨S100000x96, .f32⟩ : BufTy).Contents (Elt Ideal)) (x1 : (⟨S2x800000, .i32⟩ : BufTy).Contents (Elt Ideal))
    (x2 : (⟨S800000, .f32⟩ : BufTy).Contents (Elt Ideal)) (x3 : (⟨S96x96, .f32⟩ : BufTy).Contents (Elt Ideal))
    (x4 : (⟨S96, .f32⟩ : BufTy).Contents (Elt Ideal)) (x5 : (⟨S96x96, .f32⟩ : BufTy).Contents (Elt Ideal))
    (x6 : (⟨S96, .f32⟩ : BufTy).Contents (Elt Ideal)) (x7 : (⟨S1x96, .f32⟩ : BufTy).Contents (Elt Ideal))
    (x8 : (⟨S1, .f32⟩ : BufTy).Contents (Elt Ideal)) : (⟨S100000, .f32⟩ : BufTy).Contents (Elt Ideal) :=
  readout (biasRelu (aggregate (dense (biasRelu (aggregate (dense x0 x3) x1 x2) x4) x5) x1 x2) x6) x7 x8

/-- The first layer's aggregation in the reference is `aggregate` of its first product. -/
theorem first_aggregate (x0 : (⟨S100000x96, .f32⟩ : BufTy).Contents (Elt Ideal)) (x1 : (⟨S2x800000, .i32⟩ : BufTy).Contents (Elt Ideal))
    (x2 : (⟨S800000, .f32⟩ : BufTy).Contents (Elt Ideal)) (x3 : (⟨S96x96, .f32⟩ : BufTy).Contents (Elt Ideal)) :
    val_main_v46 (F := Ideal) x0 x1 x2 x3 = aggregate (dense x0 x3) x1 x2 := rfl

/-- The reference recomputes the graph data for the second layer from the same edge list and weights: the same arrays. -/
theorem second_graph (x1 : (⟨S2x800000, .i32⟩ : BufTy).Contents (Elt Ideal)) (x2 : (⟨S800000, .f32⟩ : BufTy).Contents (Elt Ideal)) :
    val_main_v54 (F := Ideal) x1 = val_main_v7 x1 ∧ val_main_v55 (F := Ideal) x1 = val_main_v8 x1
      ∧ val_main_v80 (F := Ideal) x1 x2 = val_main_v33 x1 x2 := ⟨rfl, rfl, rfl⟩

/-- The reference's result is `net` of its arguments. -/
theorem reference_is_net (x0 : (⟨S100000x96, .f32⟩ : BufTy).Contents (Elt Ideal)) (x1 : (⟨S2x800000, .i32⟩ : BufTy).Contents (Elt Ideal))
    (x2 : (⟨S800000, .f32⟩ : BufTy).Contents (Elt Ideal)) (x3 : (⟨S96x96, .f32⟩ : BufTy).Contents (Elt Ideal))
    (x4 : (⟨S96, .f32⟩ : BufTy).Contents (Elt Ideal)) (x5 : (⟨S96x96, .f32⟩ : BufTy).Contents (Elt Ideal))
    (x6 : (⟨S96, .f32⟩ : BufTy).Contents (Elt Ideal)) (x7 : (⟨S1x96, .f32⟩ : BufTy).Contents (Elt Ideal))
    (x8 : (⟨S1, .f32⟩ : BufTy).Contents (Elt Ideal)) :
    val_main_v103 (F := Ideal) x0 x1 x2 x3 x4 x5 x6 x7 x8 = net x0 x1 x2 x3 x4 x5 x6 x7 x8 := rfl

end Cert.Gcn

end
-- ==== Proof.KernelRun.lean ====
/-
  The kernel program's run, with its result kept.

  The program is nine segments: three stretches of host operations, the first kernel, a stretch, the second kernel, a
  stretch, the third kernel, and a last reshape. Every weakly fair execution runs them in order and terminates, and
  the final memory holds, in every buffer that outlives a kernel, the contents the last boundary names: the fold of
  the host operations and the kernels' write-backs from the launch memory. Read at the result buffer this is the
  program's value; read at an argument it is the argument as launched.
-/
import proofs.«110475_j50139448213989_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the nine arguments as launched. -/
theorem run_result : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Run

end
-- ==== Proof.KernelHost.lean ====
/-
  The kernel program's host operations, stretch by stretch, from any contents of the buffers.

  Before the first kernel the host builds the graph data from the edge list and the edge weights: the edges' sources
  and targets with the self loops appended, and every edge's normalisation coefficient. These are the arrays the
  reference's stages of the same names compute. Between two kernels the host aggregates the kernel's output over the
  graph (`Cert.Gcn.aggregateAt`, reading the graph data from the buffers that still hold it) and lays the next bias
  out as a row; after the last kernel it lays the column out as a vector. No stretch writes a buffer it only reads.
-/
import proofs.«110475_j50139448213989_1_alg».proof.Proof.Gen.KernelIdeal.Launch
import proofs.«110475_j50139448213989_1_alg».proof.Proof.GcnSpec
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Idealize.SL.Sem

variable (V : Valuation τ sig (Elt Ideal))

/-! ## Before the first kernel: the graph data -/

/-- The edges' sources, self loops appended. -/
theorem graph_src : after (hostOps0_2 (F := Ideal)) (after (hostOps0_1 (F := Ideal)) (after (hostOps0 (F := Ideal)) V)) (Proc.devRef .tc main_v5)
    = Cert.ReferenceIdeal.Read.val_main_v7 (F := Ideal) (V (Proc.devRef .tc main_arg1)) := by
  simp only [hostOps0, hostOps0_1, hostOps0_2]; after_results_simp <;> rfl

/-- The edges' targets, self loops appended. -/
theorem graph_dst : after (hostOps0_2 (F := Ideal)) (after (hostOps0_1 (F := Ideal)) (after (hostOps0 (F := Ideal)) V)) (Proc.devRef .tc main_v6)
    = Cert.ReferenceIdeal.Read.val_main_v8 (F := Ideal) (V (Proc.devRef .tc main_arg1)) := by
  simp only [hostOps0, hostOps0_1, hostOps0_2]; after_results_simp <;> rfl

/-- The inverse square root of a node's degree where the degree is positive, zero elsewhere: the select of the two
    by the comparison's outcome. -/
def dinvOf (p : (⟨S100000, .i1⟩ : BufTy).Contents (Elt Ideal)) (a : FVec Ideal S100000 .f32) (z : FVec Ideal S_ .f32) : FVec Ideal S100000 .f32 :=
  select p a (broadcastInDim S100000 ![] bcast_S_S100000 (id z))

/-- An edge's coefficient: the inverse root degree at its source (a negative index wrapped once by the node count),
    times its weight, times the inverse root degree at its target. -/
def coefAt (dinv : FVec Ideal S100000 .f32) (src dst : (⟨S900000, .i32⟩ : BufTy).Contents (Elt Ideal)) (w : FVec Ideal S900000 .f32) : FVec Ideal S900000 .f32 :=
  mulf
    (mulf
      (Host.gather gather_S100000_S900000x1_S900000_n_0_n_n_0_1_1 dinv
        (broadcastInDim S900000x1 ![0] bcast_S900000_S900000x1_0
          (select (cmpi .slt src (broadcastInDim S900000 ![] bcast_S_S900000 (constantI S_ 32 0#32)))
            (addi src (broadcastInDim S900000 ![] bcast_S_S900000 (constantI S_ 32 100000#32))) src)))
      w)
    (Host.gather gather_S100000_S900000x1_S900000_n_0_n_n_0_1_1 dinv
      (broadcastInDim S900000x1 ![0] bcast_S900000_S900000x1_0
        (select (cmpi .slt dst (broadcastInDim S900000 ![] bcast_S_S900000 (constantI S_ 32 0#32)))
          (addi dst (broadcastInDim S900000 ![] bcast_S_S900000 (constantI S_ 32 100000#32))) dst)))

/-- The reference's coefficient stage is `coefAt` of its own stages. -/
theorem coef_stage (x1 : (⟨S2x800000, .i32⟩ : BufTy).Contents (Elt Ideal)) (x2 : (⟨S800000, .f32⟩ : BufTy).Contents (Elt Ideal)) :
    Cert.ReferenceIdeal.Read.val_main_v33 (F := Ideal) x1 x2
      = coefAt (dinvOf (Cert.ReferenceIdeal.Read.val_main_v15 x1 x2) (Cert.ReferenceIdeal.Read.val_main_v16 x1 x2)
            (Cert.ReferenceIdeal.Read.val_main_cst_2 (F := Ideal)))
          (Cert.ReferenceIdeal.Read.val_main_v7 x1) (Cert.ReferenceIdeal.Read.val_main_v8 x1)
          (Cert.ReferenceIdeal.Read.val_main_v10 x2) := rfl

/-- The first stretch: the edge weights with the self loops' ones appended. -/
theorem first_weights : after (hostOps0 (F := Ideal)) V (Proc.devRef .tc main_v8)
    = Cert.ReferenceIdeal.Read.val_main_v10 (F := Ideal) (V (Proc.devRef .tc main_arg2)) := by
  simp only [hostOps0]; after_results_simp <;> rfl
theorem first_src : after (hostOps0 (F := Ideal)) V (Proc.devRef .tc main_v5)
    = Cert.ReferenceIdeal.Read.val_main_v7 (F := Ideal) (V (Proc.devRef .tc main_arg1)) := by
  simp only [hostOps0]; after_results_simp <;> rfl
theorem first_dst : after (hostOps0 (F := Ideal)) V (Proc.devRef .tc main_v6)
    = Cert.ReferenceIdeal.Read.val_main_v8 (F := Ideal) (V (Proc.devRef .tc main_arg1)) := by
  simp only [hostOps0]; after_results_simp <;> rfl
/-- The first stretch: is a node's degree positive, and the inverse root of the degree. -/
theorem first_positive : after (hostOps0 (F := Ideal)) V (Proc.devRef .tc main_v13)
    = Cert.ReferenceIdeal.Read.val_main_v15 (F := Ideal) (V (Proc.devRef .tc main_arg1)) (V (Proc.devRef .tc main_arg2)) := by
  simp only [hostOps0]; after_results_simp <;> rfl
theorem first_rsqrt : after (hostOps0 (F := Ideal)) V (Proc.devRef .tc main_v14)
    = Cert.ReferenceIdeal.Read.val_main_v16 (F := Ideal) (V (Proc.devRef .tc main_arg1)) (V (Proc.devRef .tc main_arg2)) := by
  simp only [hostOps0]; after_results_simp <;> rfl
theorem first_zero : after (hostOps0 (F := Ideal)) V (Proc.devRef .tc main_cst_2)
    = Cert.ReferenceIdeal.Read.val_main_cst_2 (F := Ideal) := by
  simp only [hostOps0]; after_results_simp <;> rfl

/-- The second stretch selects; it keeps the sources, the targets and the weights. -/
theorem second_select : after (hostOps0_1 (F := Ideal)) V (Proc.devRef .tc main_v15)
    = dinvOf (V (Proc.devRef .tc main_v13)) (V (Proc.devRef .tc main_v14)) (V (Proc.devRef .tc main_cst_2)) := by
  simp only [hostOps0_1]; after_results_simp <;> rfl
theorem second_keeps_src : after (hostOps0_1 (F := Ideal)) V (Proc.devRef .tc main_v5) = V (Proc.devRef .tc main_v5) := by
  simp only [hostOps0_1]; after_results_simp
theorem second_keeps_dst : after (hostOps0_1 (F := Ideal)) V (Proc.devRef .tc main_v6) = V (Proc.devRef .tc main_v6) := by
  simp only [hostOps0_1]; after_results_simp
theorem second_keeps_weights : after (hostOps0_1 (F := Ideal)) V (Proc.devRef .tc main_v8) = V (Proc.devRef .tc main_v8) := by
  simp only [hostOps0_1]; after_results_simp

/-- The third stretch multiplies the coefficient out. -/
theorem third_coef : after (hostOps0_2 (F := Ideal)) V (Proc.devRef .tc main_v31)
    = coefAt (V (Proc.devRef .tc main_v15)) (V (Proc.devRef .tc main_v5)) (V (Proc.devRef .tc main_v6))
        (V (Proc.devRef .tc main_v8)) := by
  simp only [hostOps0_2]; after_results_simp <;> rfl

/-- Every edge's normalisation coefficient. -/
theorem graph_coef : after (hostOps0_2 (F := Ideal)) (after (hostOps0_1 (F := Ideal)) (after (hostOps0 (F := Ideal)) V)) (Proc.devRef .tc main_v31)
    = Cert.ReferenceIdeal.Read.val_main_v33 (F := Ideal) (V (Proc.devRef .tc main_arg1)) (V (Proc.devRef .tc main_arg2)) := by
  rw [third_coef, second_select, second_keeps_src, second_keeps_dst, second_keeps_weights, first_positive, first_rsqrt,
    first_zero, first_src, first_dst, first_weights, coef_stage]

theorem graph_keeps_main_arg0 : after (hostOps0_2 (F := Ideal)) (after (hostOps0_1 (F := Ideal)) (after (hostOps0 (F := Ideal)) V)) (Proc.devRef .tc main_arg0) = V (Proc.devRef .tc main_arg0) := by
  simp only [hostOps0, hostOps0_1, hostOps0_2]; after_results_simp
theorem graph_keeps_main_arg3 : after (hostOps0_2 (F := Ideal)) (after (hostOps0_1 (F := Ideal)) (after (hostOps0 (F := Ideal)) V)) (Proc.devRef .tc main_arg3) = V (Proc.devRef .tc main_arg3) := by
  simp only [hostOps0, hostOps0_1, hostOps0_2]; after_results_simp
theorem graph_keeps_main_arg4 : after (hostOps0_2 (F := Ideal)) (after (hostOps0_1 (F := Ideal)) (after (hostOps0 (F := Ideal)) V)) (Proc.devRef .tc main_arg4) = V (Proc.devRef .tc main_arg4) := by
  simp only [hostOps0, hostOps0_1, hostOps0_2]; after_results_simp
theorem graph_keeps_main_arg5 : after (hostOps0_2 (F := Ideal)) (after (hostOps0_1 (F := Ideal)) (after (hostOps0 (F := Ideal)) V)) (Proc.devRef .tc main_arg5) = V (Proc.devRef .tc main_arg5) := by
  simp only [hostOps0, hostOps0_1, hostOps0_2]; after_results_simp
theorem graph_keeps_main_arg6 : after (hostOps0_2 (F := Ideal)) (after (hostOps0_1 (F := Ideal)) (after (hostOps0 (F := Ideal)) V)) (Proc.devRef .tc main_arg6) = V (Proc.devRef .tc main_arg6) := by
  simp only [hostOps0, hostOps0_1, hostOps0_2]; after_results_simp
theorem graph_keeps_main_arg7 : after (hostOps0_2 (F := Ideal)) (after (hostOps0_1 (F := Ideal)) (after (hostOps0 (F := Ideal)) V)) (Proc.devRef .tc main_arg7) = V (Proc.devRef .tc main_arg7) := by
  simp only [hostOps0, hostOps0_1, hostOps0_2]; after_results_simp
theorem graph_keeps_main_arg8 : after (hostOps0_2 (F := Ideal)) (after (hostOps0_1 (F := Ideal)) (after (hostOps0 (F := Ideal)) V)) (Proc.devRef .tc main_arg8) = V (Proc.devRef .tc main_arg8) := by
  simp only [hostOps0, hostOps0_1, hostOps0_2]; after_results_simp

/-! ## Between the first and the second kernel -/

/-- The first product aggregated over the graph. -/
theorem gap1_aggregate : after (hostOps1 (F := Ideal)) V (Proc.devRef .tc main_v45)
    = Cert.Gcn.aggregateAt (V (Proc.devRef .tc main_v32)) (V (Proc.devRef .tc main_v5)) (V (Proc.devRef .tc main_v6))
        (V (Proc.devRef .tc main_v31)) := by
  simp only [hostOps1]; after_results_simp <;> rfl

/-- The first bias as a row. -/
theorem gap1_row : after (hostOps1 (F := Ideal)) V (Proc.devRef .tc main_v46)
    = shapeCast S1x96 (V (Proc.devRef .tc main_arg4)) shapeCasts_S96_S1x96 := by
  simp only [hostOps1]; after_results_simp <;> rfl

theorem gap1_keeps_main_v5 : after (hostOps1 (F := Ideal)) V (Proc.devRef .tc main_v5) = V (Proc.devRef .tc main_v5) := by
  simp only [hostOps1]; after_results_simp
theorem gap1_keeps_main_v6 : after (hostOps1 (F := Ideal)) V (Proc.devRef .tc main_v6) = V (Proc.devRef .tc main_v6) := by
  simp only [hostOps1]; after_results_simp
theorem gap1_keeps_main_v31 : after (hostOps1 (F := Ideal)) V (Proc.devRef .tc main_v31) = V (Proc.devRef .tc main_v31) := by
  simp only [hostOps1]; after_results_simp
theorem gap1_keeps_main_arg5 : after (hostOps1 (F := Ideal)) V (Proc.devRef .tc main_arg5) = V (Proc.devRef .tc main_arg5) := by
  simp only [hostOps1]; after_results_simp
theorem gap1_keeps_main_arg6 : after (hostOps1 (F := Ideal)) V (Proc.devRef .tc main_arg6) = V (Proc.devRef .tc main_arg6) := by
  simp only [hostOps1]; after_results_simp
theorem gap1_keeps_main_arg7 : after (hostOps1 (F := Ideal)) V (Proc.devRef .tc main_arg7) = V (Proc.devRef .tc main_arg7) := by
  simp only [hostOps1]; after_results_simp
theorem gap1_keeps_main_arg8 : after (hostOps1 (F := Ideal)) V (Proc.devRef .tc main_arg8) = V (Proc.devRef .tc main_arg8) := by
  simp only [hostOps1]; after_results_simp

/-! ## Between the second and the third kernel -/

/-- The second product aggregated over the graph. -/
theorem gap2_aggregate : after (hostOps2 (F := Ideal)) V (Proc.devRef .tc main_v60)
    = Cert.Gcn.aggregateAt (V (Proc.devRef .tc main_v47)) (V (Proc.devRef .tc main_v5)) (V (Proc.devRef .tc main_v6))
        (V (Proc.devRef .tc main_v31)) := by
  simp only [hostOps2]; after_results_simp <;> rfl

/-- The second bias as a row. -/
theorem gap2_row : after (hostOps2 (F := Ideal)) V (Proc.devRef .tc main_v61)
    = shapeCast S1x96 (V (Proc.devRef .tc main_arg6)) shapeCasts_S96_S1x96 := by
  simp only [hostOps2]; after_results_simp <;> rfl

/-- The head's bias as a one-by-one array. -/
theorem gap2_bias : after (hostOps2 (F := Ideal)) V (Proc.devRef .tc main_v62)
    = shapeCast S1x1 (V (Proc.devRef .tc main_arg8)) shapeCasts_S1_S1x1 := by
  simp only [hostOps2]; after_results_simp <;> rfl

theorem gap2_keeps_main_arg7 : after (hostOps2 (F := Ideal)) V (Proc.devRef .tc main_arg7) = V (Proc.devRef .tc main_arg7) := by
  simp only [hostOps2]; after_results_simp

/-! ## After the third kernel -/

/-- The head's column as a vector over the nodes. -/
theorem tail_vector : after (hostOps3 (F := Ideal)) V (Proc.devRef .tc main_v64)
    = shapeCast S100000 (V (Proc.devRef .tc main_v63)) shapeCasts_S100000x1_S100000 := by
  simp only [hostOps3]; after_results_simp <;> rfl

end Cert.KernelIdeal.Host

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibDotRows.lean ====
/-
  The host's matrix product, read at a row and a column.

  For dimension numbers that contract the left operand's axis 1 against the right operand's axis 0, with no batch axis,
  the host product of an [M, K] and a [K, N] array reads at (p, c) as the sum over a < K of l(p, a) · r(a, c): on the
  extended reals the host product is the plain sum over the contraction shape's indices, and that shape has one axis.
  The companion of the same reading of a kernel's product into a zero accumulator.
-/
import Idealize.ShloMosaic.PureOps.Ideal.Laws
import Idealize.ShloMosaic.Lib.ValueIdx

noncomputable section

namespace Cert.LibDotRows

open Idealize.ShloMosaic Idealize.ShloMosaic.ValueIdx

/-- The host product at (p, c), from the four facts that say which operand index the dimension numbers read at an
    output index and a contraction index. -/
theorem dotGeneral_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    Host.dotGeneral d prec l r (ix2 p c) = ∑ a : Fin K, l (ix2 p a) * r (ix2 a c) := by
  show FloatOps.dotGeneral d prec .single l r (ix2 p c) = _
  rw [Ideal.dotGeneral_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibDotRows

end
-- ==== Proof.LibTileRows.lean ====
/-
  A tile of rows of a matrix product, and a bias row added to every row.

  `rowsProd X W` is the product of an [M, K] array and a [K, N] array entry by entry: at (r, c) the sum over a < K of
  X(r, a) · W(a, c). On the extended reals the host's product with plain dimension numbers (the left operand's axis 1
  contracted against the right operand's axis 0, no batch axis) is this array. A kernel that walks the rows in tiles
  multiplies, at each tile, the tile's rows [Mb, K] by the whole of W into a zero accumulator: when the tile's rows are
  the rows o, o + 1, … of X, what it leaves at (p, c) is `rowsProd X W` at (o + p, c) — a row of the product depends on
  that row of X only.

  `rowsBias A B` adds the one row B [1, N] to every row of A [M, N]. A tile of rows of A with the same B added to each
  row is the tile of `rowsBias A B`.
-/
import proofs.«110475_j50139448213989_1_alg».proof.Proof.LibMatmulRows
import proofs.«110475_j50139448213989_1_alg».proof.Proof.LibDotRows
import Idealize.ShloMosaic.Lib.Pipeline.Value
import Idealize.ShloMosaic.Lib.ValueLayout

noncomputable section

namespace Cert.LibTileRows

open Idealize.ShloMosaic Idealize.ShloMosaic.ValueIdx

/-- The product of an [M, K] and a [K, N] array, entry by entry. -/
def rowsProd {M K N : Nat} (X : (⟨2, ![M, K]⟩ : Shape).Idx → EReal) (W : (⟨2, ![K, N]⟩ : Shape).Idx → EReal) :
    (⟨2, ![M, N]⟩ : Shape).Idx → EReal :=
  fun i => ∑ a : Fin K, X (ix2 (i 0) a) * W (ix2 a (i 1))

/-- The host's plain product is `rowsProd`. -/
theorem rowsProd_eq_dot {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (X : FVec Ideal ⟨2, ![M, K]⟩ .f32) (W : FVec Ideal ⟨2, ![K, N]⟩ .f32) :
    rowsProd X W = Host.dotGeneral (F := Ideal) d none X W := by
  funext i
  obtain ⟨p, q, rfl⟩ : ∃ (p : Fin M) (q : Fin N), i = ix2 p q := ⟨i 0, i 1, eq_ix2 i⟩
  exact (Cert.LibDotRows.dotGeneral_ix2 d hr hs hl0 hl1 hr0 hr1 none X W p q).symm

/-- A tile of rows times the whole right operand, into the zero accumulator: the tile of the whole product whose rows
    start at row `o`. -/
theorem tile_rowsProd {Mb M K N : Nat} {φ₁ φ₂ : FTy} (d : DotDims ⟨2, ![Mb, K]⟩ ⟨2, ![K, N]⟩ ⟨2, ![Mb, N]⟩)
    (hr : d.contr.rank = 1) (hs : d.contr.size ⟨0, by omega⟩ = K)
    (hl0 : ∀ (i : (⟨2, ![Mb, N]⟩ : Shape).Idx) (q : d.contr.Idx), (d.lhsIdx i q 0).val = (i 0).val)
    (hl1 : ∀ (i : (⟨2, ![Mb, N]⟩ : Shape).Idx) (q : d.contr.Idx), (d.lhsIdx i q 1).val = (q ⟨0, by omega⟩).val)
    (hr0 : ∀ (i : (⟨2, ![Mb, N]⟩ : Shape).Idx) (q : d.contr.Idx), (d.rhsIdx i q 0).val = (q ⟨0, by omega⟩).val)
    (hr1 : ∀ (i : (⟨2, ![Mb, N]⟩ : Shape).Idx) (q : d.contr.Idx), (d.rhsIdx i q 1).val = (i 1).val)
    (prec : Option ContractPrecision) (l : FVec Ideal ⟨2, ![Mb, K]⟩ φ₁) (r : FVec Ideal ⟨2, ![K, N]⟩ φ₂)
    (X : (⟨2, ![M, K]⟩ : Shape).Idx → EReal) (W : (⟨2, ![K, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x)
    (y : (⟨2, ![Mb, N]⟩ : Shape).Idx) (i : (⟨2, ![M, N]⟩ : Shape).Idx)
    (hi0 : (i 0).val = o + (y 0).val) (hi1 : (i 1).val = (y 1).val) :
    matmul d prec l r (constant ⟨2, ![Mb, N]⟩ .f32 0x00000000#32) y = rowsProd X W i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [Cert.LibMatmulRows.matmul_zero_ix2 d hr hs hl0 hl1 hr0 hr1 prec l r p v]
  unfold rowsProd
  refine Finset.sum_congr rfl fun a _ => ?_
  rw [hX (ix2 p a) (ix2 u a) hi0 rfl, hW]
  rfl

/-- One row added to every row. -/
def rowsBias {M N : Nat} (A : (⟨2, ![M, N]⟩ : Shape).Idx → EReal) (B : (⟨2, ![1, N]⟩ : Shape).Idx → EReal) :
    (⟨2, ![M, N]⟩ : Shape).Idx → EReal :=
  fun i => A i + B (ix2 (0 : Fin 1) (i 1))

/-- One row added to every row, then the maximum with the float word zero (a rectifier). -/
def rowsBiasRelu {M N : Nat} (A : (⟨2, ![M, N]⟩ : Shape).Idx → EReal) (B : (⟨2, ![1, N]⟩ : Shape).Idx → EReal) :
    (⟨2, ![M, N]⟩ : Shape).Idx → EReal :=
  fun i => max (rowsBias A B i) (Ideal.ofBits .f32 0x00000000#32)

/-- A tile of rows with the one row `b` broadcast over it and added: the tile of `rowsBias A B` whose rows start at
    row `o`, when the tile holds rows `o`, `o + 1`, … of `A` and `b` is `B`. -/
theorem tile_rowsBias {Mb M N : Nat} (a : (⟨2, ![Mb, N]⟩ : Shape).Idx → EReal) (b : (⟨2, ![1, N]⟩ : Shape).Idx → EReal)
    (hb : (⟨2, ![1, N]⟩ : Shape).Broadcasts ⟨2, ![Mb, N]⟩)
    (A : (⟨2, ![M, N]⟩ : Shape).Idx → EReal) (B : (⟨2, ![1, N]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → a x = A k)
    (hB : ∀ x, b x = B x)
    (y : (⟨2, ![Mb, N]⟩ : Shape).Idx) (i : (⟨2, ![M, N]⟩ : Shape).Idx)
    (hi0 : (i 0).val = o + (y 0).val) (hi1 : (i 1).val = (y 1).val) :
    a y + broadcastTo ⟨2, ![Mb, N]⟩ b hb y = rowsBias A B i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [broadcastTo_1b_ab_apply b hb p v, hA (ix2 p v) (ix2 u v) hi0 rfl, hB]
  rfl

/-- One row added to every row is the sum with the row broadcast along axis 0 (a `broadcast_in_dim` of [1, N] to
    [M, N] that keeps both axes). -/
theorem rowsBias_eq_add {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1]) :
    rowsBias A B = addf A (broadcastInDim ⟨2, ![M, N]⟩ ![0, 1] hb B) := by
  funext i
  obtain ⟨p, q, rfl⟩ : ∃ (p : Fin M) (q : Fin N), i = ix2 p q := ⟨i 0, i 1, eq_ix2 i⟩
  rw [addf_apply, broadcastInDim_apply ![0, 1] hb B (ix2 p q) (ix2 (0 : Fin 1) q) ?_]
  · rfl
  · intro a
    match a with
    | ⟨0, _⟩ => rfl
    | ⟨1, _⟩ =>
      show q.val = if N = 1 then 0 else q.val
      split
      · have := q.isLt; omega
      · rfl

/-- The same followed by the maximum with zero, the zero spelt as a scalar constant broadcast to the whole shape. -/
theorem rowsBiasRelu_eq_max {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1])
    (h0 : (⟨0, ![]⟩ : Shape).BroadcastsInDim ⟨2, ![M, N]⟩ ![]) :
    rowsBiasRelu A B = maximumf (addf A (broadcastInDim ⟨2, ![M, N]⟩ ![0, 1] hb B))
      (broadcastInDim ⟨2, ![M, N]⟩ ![] h0 (constant (F := Ideal) ⟨0, ![]⟩ .f32 0x00000000#32)) := by
  funext i
  rw [maximumf_apply, ← rowsBias_eq_add A B hb,
    broadcastInDim_apply ![] h0 (constant (F := Ideal) ⟨0, ![]⟩ .f32 0x00000000#32) i ix0 (fun a => a.elim0)]
  rfl

end Cert.LibTileRows

end
-- ==== Proof.LibPlainDot.lean ====
/-
  Plain matrix-product dimension numbers, read at their indices.

  Dimension numbers of a product of an [M, K] array and a [K, N] array are PLAIN when they contract the left
  operand's axis 1 against the right operand's axis 0, keep the left operand's axis 0 and the right operand's axis 1 as
  the result's two axes in that order, and have no batch axis. For such numbers the contraction shape has the one axis
  of extent K, and at a result index (p, c) and a contraction position a the left operand is read at (p, a) and the
  right operand at (a, c). These are the six facts a product needs to be read as the sum over a of l(p, a) · r(a, c).
-/
import Idealize.ShloMosaic.PureOps.Ideal.Laws
import Idealize.ShloMosaic.Lib.ValueIdx

noncomputable section

namespace Cert.LibPlainDot

open Idealize.ShloMosaic

variable {M K N : Nat} (d : DotDims ⟨2, ![M, K]⟩ ⟨2, ![K, N]⟩ ⟨2, ![M, N]⟩)

/-- The six lists of plain dimension numbers. -/
structure Plain : Prop where
  lc : d.lhsContracting = [1]
  rc : d.rhsContracting = [0]
  ln : d.lhsNonContracting = [0]
  rn : d.rhsNonContracting = [1]
  lb : d.lhsBatch = []
  rb : d.rhsBatch = []

variable {d}

/-- One contracted axis. -/
theorem Plain.rank (h : Plain d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The left operand's row is the result's row. -/
theorem Plain.lhs0 (h : Plain d) (i : (⟨2, ![M, N]⟩ : Shape).Idx) (q : d.contr.Idx) : (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The left operand's column is the contraction position. -/
theorem Plain.lhs1 (h : Plain d) (i : (⟨2, ![M, N]⟩ : Shape).Idx) (q : d.contr.Idx) :
    (d.lhsIdx i q 1).val = (q ⟨0, by rw [h.rank]; exact Nat.one_pos⟩).val :=
  d.lhsIdx_val_of_single h.lc i q

/-- The right operand's row is the contraction position. -/
theorem Plain.rhs0 (h : Plain d) (i : (⟨2, ![M, N]⟩ : Shape).Idx) (q : d.contr.Idx) :
    (d.rhsIdx i q 0).val = (q ⟨0, by rw [h.rank]; exact Nat.one_pos⟩).val :=
  d.rhsIdx_val_of_single h.rc i q

/-- The right operand's column is the result's column. -/
theorem Plain.rhs1 (h : Plain d) (i : (⟨2, ![M, N]⟩ : Shape).Idx) (q : d.contr.Idx) : (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- The contracted axis has the operands' shared extent. -/
theorem Plain.size (h : Plain d) : d.contr.size ⟨0, by rw [h.rank]; exact Nat.one_pos⟩ = K := by
  have hp : 0 < d.lhsContracting.length := by rw [h.lc]; exact Nat.one_pos
  have e1 : d.lhsContracting[0] = (1 : Fin (⟨2, ![M, K]⟩ : Shape).rank) := by simp [h.lc]
  exact (d.size_contr 0 hp).trans (by rw [e1]; rfl)

end Cert.LibPlainDot

end
-- ==== Proof.FirstProduct.lean ====
/-
  The first layer's linear map, tile by tile.

  The first kernel walks the 100000 rows of x in ten tiles of 10000 rows. On each tile it multiplies the tile's rows
  [10000, 96] by the transpose of W1 [96, 96] into a zero accumulator (the changes of float format are the identity on
  the extended reals). A row of a product depends on that row of the left operand only, so what the tile with rows
  10000·t, …, 10000·t + 9999 leaves is those rows of the one array x · W1ᵀ; the ten tiles cover every row, and the
  output array ends holding x · W1ᵀ.
-/
import proofs.«110475_j50139448213989_1_alg».proof.Proof.Gen.KernelIdeal.Frame
import proofs.«110475_j50139448213989_1_alg».proof.Proof.LibTileRows
import proofs.«110475_j50139448213989_1_alg».proof.Proof.LibPlainDot
import Idealize.ShloMosaic.Lib.Pipeline.Value

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.SL.Sem Idealize.ShloMosaic.Pipeline Cert.LibTileRows Cert.LibPlainDot

theorem hz : (![0, 0] : Fin 2 → Nat) = fun _ => 0 := funext fun a => by fin_cases a <;> rfl

/-- The tile-sized product's dimension numbers are plain: axis 1 of the left operand against axis 0 of the right. -/
theorem plain_tile : Plain dot_S10000x96_S96x96_S10000x96_1_0_0_1_n_n := ⟨rfl, rfl, rfl, rfl, rfl, rfl⟩

/-- x · Wᵀ for x of 100000 rows and a square W of 96: entry (r, c) is the sum over a of x(r, a) · W(c, a). -/
def xWt (X : S100000x96.Idx → EReal) (W : S96x96.Idx → EReal) : S100000x96.Idx → EReal :=
  rowsProd X (transpose S96x96 [1, 0] W transposes_S96x96_p1_0_S96x96)

/-- The body's one stored value, on a tile holding rows o, o + 1, … of X beside the whole of W, is that tile of
    X · Wᵀ. -/
theorem product_tile (x0 : Vec Ideal S10000x96 .f32) (x1 : Vec Ideal S96x96 .f32)
    (X : S100000x96.Idx → EReal) (o : Nat)
    (hX : ∀ (x : S10000x96.Idx) (k : S100000x96.Idx), (k 0).val = o + (x 0).val → (k 1).val = (x 1).val → x0 x = X k)
    (y : S10000x96.Idx) (i : S100000x96.Idx) (hi0 : (i 0).val = o + (y 0).val) (hi1 : (i 1).val = (y 1).val) :
    k0_pay1 (F := Ideal) x0 x1 y = xWt X x1 i := by
  unfold k0_pay1 xWt
  exact tile_rowsProd dot_S10000x96_S96x96_S10000x96_1_0_0_1_n_n plain_tile.rank plain_tile.size plain_tile.lhs0
    plain_tile.lhs1 plain_tile.rhs0 plain_tile.rhs1 none _ _ X _ o hX (fun _ => rfl) y i hi0 hi1

/-- The printed index maps over the grid: the tile of x moves with the output's tile, W stays. -/
theorem idx_first : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row tiles is some point's. -/
theorem onto_first : ∀ q : Fin 10, ∃ t : Fin cfg0.N, win0_2.index t = ![q.val, 0] :=
  (by decide +kernel : ∀ q : Fin 10, ∃ t : Fin grid0.N, win0_2.index t = ![q.val, 0])

variable (V : (c : Dev nD) → (b : Ref sig .tc) → Buf (Elt Ideal) ((c : Thread nD τ).loc b))

/-- What point t writes back is tile t of x · W1ᵀ, x and W1 as the region finds them. -/
theorem flushed_first (c : Dev nD) (t : Fin cfg0.N) :
    (dat0 (F := Ideal) V c).flushed 2 t
      = ((cfg0.win 2).blk t).view.read (Elt Ideal) (xWt (V c main_arg0) (V c main_arg3)) := by
  show (cfg0.win 2).cut (grid0.coords t) ((dat0 V c).after 2 t) = _
  rw [after0_2]
  unfold out0_2
  rw [View.canon_unit_zero hz]
  simp only [View.ld_unit_zero (S := S10000x96) hz, View.ld_unit_zero (S := S96x96) hz]
  obtain ⟨e0, e1, e2, e3, e4, e5⟩ := idx_first t
  funext j
  have hW : iblk0 V c 1 t = V c main_arg3 := by
    funext x
    show V c main_arg3 (((cfg0.win 1).blk t).view.emb x) = V c main_arg3 x
    refine congrArg _ (funext fun a => Fin.ext ?_)
    match a with
    | ⟨0, _⟩ => show win0_1.index t (0 : Fin 2) * 96 + 1 * (x 0).val = (x 0).val; omega
    | ⟨1, _⟩ => show win0_1.index t (1 : Fin 2) * 96 + 1 * (x 1).val = (x 1).val; omega
  show k0_pay1 (F := Ideal) (iblk0 V c 0 t) (iblk0 V c 1 t) j = xWt (V c main_arg0) (V c main_arg3) (((cfg0.win 2).blk t).view.emb j)
  rw [hW]
  refine product_tile (iblk0 V c 0 t) (V c main_arg3) (V c main_arg0) (win0_2.index t (0 : Fin 2) * 10000) ?_ j
    (((cfg0.win 2).blk t).view.emb j) ?_ ?_
  · intro x k h0 h1
    show V c main_arg0 (((cfg0.win 0).blk t).view.emb x) = V c main_arg0 k
    refine congrArg _ (funext fun a => Fin.ext ?_)
    match a with
    | ⟨0, _⟩ => show win0_0.index t (0 : Fin 2) * 10000 + 1 * (x 0).val = (k 0).val; omega
    | ⟨1, _⟩ => show win0_0.index t (1 : Fin 2) * 96 + 1 * (x 1).val = (k 1).val; omega
  · show win0_2.index t (0 : Fin 2) * 10000 + 1 * (j 0).val = win0_2.index t (0 : Fin 2) * 10000 + (j 0).val; omega
  · show win0_2.index t (1 : Fin 2) * 96 + 1 * (j 1).val = (j 1).val; omega

/-- An index is in point t's tile iff each coordinate is in the tile's range on its axis. -/
theorem mem_first (t : Fin cfg0.N) (i : S100000x96.Idx) :
    i ∈ ((cfg0.win 2).blk t).view.set ↔ ∀ a : Fin 2, win0_2.index t a * S10000x96.size a ≤ (i a).val
      ∧ (i a).val < win0_2.index t a * S10000x96.size a + S10000x96.size a := by
  show i ∈ ((View.whole main_v32).slice (win0_2.rect t)).set ↔ _
  rw [View.set_slice_whole, Rect.mem_set_unit]
  exact Iff.rfl

/-- Row r is in the tile r / 10000. -/
theorem cover_first (i : S100000x96.Idx) :
    ∃ t : Fin cfg0.N, (cfg0.win 2).flush t = true ∧ i ∈ ((cfg0.win 2).blk t).view.set := by
  have hi0 : (i 0).val < 100000 := (i 0).isLt
  have hi1 : (i 1).val < 96 := (i 1).isLt
  obtain ⟨t, ht⟩ := onto_first ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_first]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 96 ≤ (i 1).val ∧ (i 1).val < win0_2.index t (1 : Fin 2) * 96 + 96; omega

/-- The first kernel's output array after its ten points: x · W1ᵀ of the arrays it was entered with. -/
theorem first_product (c : Dev nD) :
    (dat0 (F := Ideal) V c).arrAt 2 cfg0.N = xWt (V c main_arg0) (V c main_arg3) :=
  (dat0 (F := Ideal) V c).arrAt_eq_of_cover 2 _ (fun t _ => flushed_first V c t) cover_first

end Cert.KernelIdeal.Tiles

end
-- ==== Proof.SecondProduct.lean ====
/-
  The second layer's linear map, fused with the first layer's bias and rectifier, tile by tile.

  The second kernel walks the 100000 rows of the first aggregation C in ten tiles of 10000 rows. On each tile it adds
  the bias row b1 to every row, takes the maximum with zero, and multiplies by the transpose of W2 into a zero
  accumulator. Each of these acts on a row independently of the other rows, so the tile with rows 10000·t, … leaves
  those rows of the one array max(C + b1, 0) · W2ᵀ, and the ten tiles cover every row.
-/
import proofs.«110475_j50139448213989_1_alg».proof.Proof.FirstProduct

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.SL.Sem Idealize.ShloMosaic.Pipeline Cert.LibTileRows Cert.LibPlainDot

/-- max(C + b, 0) · Wᵀ: the bias row b added to every row of C, the maximum with zero, times the transposed W. -/
def reluXWt (C : S100000x96.Idx → EReal) (B : S1x96.Idx → EReal) (W : S96x96.Idx → EReal) : S100000x96.Idx → EReal :=
  xWt (rowsBiasRelu C B) W

/-- The bias and rectifier on a tile holding rows o, o + 1, … of C are those rows of the bias and rectifier on C. -/
theorem biasRelu_tile (v0 : Vec Ideal S10000x96 .f32) (v2 : Vec Ideal S1x96 .f32) (C : S100000x96.Idx → EReal) (o : Nat)
    (hC : ∀ (x : S10000x96.Idx) (k : S100000x96.Idx), (k 0).val = o + (x 0).val → (k 1).val = (x 1).val → v0 x = C k)
    (x : S10000x96.Idx) (k : S100000x96.Idx) (h0 : (k 0).val = o + (x 0).val) (h1 : (k 1).val = (x 1).val) :
    (maximumf (addf (shapeCast S10000x96 v0 shapeCasts_S10000x96_S10000x96)
        (broadcastTo S10000x96 (shapeCast S1x96 v2 shapeCasts_S1x96_S1x96) broadcasts_S1x96_S10000x96))
      (broadcast S10000x96 (Scalar.ofBits .f32 0x00000000#32)) : FVec Ideal S10000x96 .f32) x = rowsBiasRelu C v2 k := by
  rw [shapeCast_self v0, shapeCast_self v2]
  show max (v0 x + broadcastTo S10000x96 v2 broadcasts_S1x96_S10000x96 x) (Ideal.ofBits .f32 0x00000000#32)
      = max (rowsBias C v2 k) (Ideal.ofBits .f32 0x00000000#32)
  rw [tile_rowsBias v0 v2 broadcasts_S1x96_S10000x96 C v2 o hC (fun _ => rfl) x k h0 h1]

/-- The body's one stored value on a tile of rows is that tile of max(C + b, 0) · Wᵀ. -/
theorem second_tile (v0 : Vec Ideal S10000x96 .f32) (v2 : Vec Ideal S1x96 .f32) (v9 : Vec Ideal S96x96 .f32)
    (C : S100000x96.Idx → EReal) (o : Nat)
    (hC : ∀ (x : S10000x96.Idx) (k : S100000x96.Idx), (k 0).val = o + (x 0).val → (k 1).val = (x 1).val → v0 x = C k)
    (y : S10000x96.Idx) (i : S100000x96.Idx) (hi0 : (i 0).val = o + (y 0).val) (hi1 : (i 1).val = (y 1).val) :
    k1_pay1 (F := Ideal) v0 v2 v9 y = reluXWt C v2 v9 i := by
  unfold k1_pay1 reluXWt xWt
  exact tile_rowsProd dot_S10000x96_S96x96_S10000x96_1_0_0_1_n_n plain_tile.rank plain_tile.size plain_tile.lhs0
    plain_tile.lhs1 plain_tile.rhs0 plain_tile.rhs1 none _ _ (rowsBiasRelu C v2) _ o
    (fun x k h0 h1 => biasRelu_tile v0 v2 C o hC x k h0 h1) (fun _ => rfl) y i hi0 hi1

/-- The printed index maps over the grid: the tile of C moves with the output's tile, the bias row and W2 stay. -/
theorem idx_second : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

theorem onto_second : ∀ q : Fin 10, ∃ t : Fin cfg1.N, win1_3.index t = ![q.val, 0] :=
  (by decide +kernel : ∀ q : Fin 10, ∃ t : Fin grid1.N, win1_3.index t = ![q.val, 0])

variable (V : (c : Dev nD) → (b : Ref sig .tc) → Buf (Elt Ideal) ((c : Thread nD τ).loc b))

/-- What point t writes back is tile t of max(C + b1, 0) · W2ᵀ, the three arrays as the region finds them. -/
theorem flushed_second (c : Dev nD) (t : Fin cfg1.N) :
    (dat1 (F := Ideal) V c).flushed 3 t
      = ((cfg1.win 3).blk t).view.read (Elt Ideal) (reluXWt (V c main_v45) (V c main_v46) (V c main_arg5)) := by
  show (cfg1.win 3).cut (grid1.coords t) ((dat1 V c).after 3 t) = _
  rw [after1_3]
  unfold out1_3
  rw [View.canon_unit_zero hz]
  simp only [View.ld_unit_zero (S := S10000x96) hz, View.ld_unit_zero (S := S1x96) hz, View.ld_unit_zero (S := S96x96) hz]
  obtain ⟨e0, e1, e2, e3, e4, e5, e6, e7⟩ := idx_second t
  funext j
  have hB : iblk1 V c 1 t = V c main_v46 := by
    funext x
    show V c main_v46 (((cfg1.win 1).blk t).view.emb x) = V c main_v46 x
    refine congrArg _ (funext fun a => Fin.ext ?_)
    match a with
    | ⟨0, _⟩ => show win1_1.index t (0 : Fin 2) * 1 + 1 * (x 0).val = (x 0).val; omega
    | ⟨1, _⟩ => show win1_1.index t (1 : Fin 2) * 96 + 1 * (x 1).val = (x 1).val; omega
  have hW : iblk1 V c 2 t = V c main_arg5 := by
    funext x
    show V c main_arg5 (((cfg1.win 2).blk t).view.emb x) = V c main_arg5 x
    refine congrArg _ (funext fun a => Fin.ext ?_)
    match a with
    | ⟨0, _⟩ => show win1_2.index t (0 : Fin 2) * 96 + 1 * (x 0).val = (x 0).val; omega
    | ⟨1, _⟩ => show win1_2.index t (1 : Fin 2) * 96 + 1 * (x 1).val = (x 1).val; omega
  show k1_pay1 (F := Ideal) (iblk1 V c 0 t) (iblk1 V c 1 t) (iblk1 V c 2 t) j
    = reluXWt (V c main_v45) (V c main_v46) (V c main_arg5) (((cfg1.win 3).blk t).view.emb j)
  rw [hB, hW]
  refine second_tile (iblk1 V c 0 t) (V c main_v46) (V c main_arg5) (V c main_v45) (win1_3.index t (0 : Fin 2) * 10000) ?_ j
    (((cfg1.win 3).blk t).view.emb j) ?_ ?_
  · intro x k h0 h1
    show V c main_v45 (((cfg1.win 0).blk t).view.emb x) = V c main_v45 k
    refine congrArg _ (funext fun a => Fin.ext ?_)
    match a with
    | ⟨0, _⟩ => show win1_0.index t (0 : Fin 2) * 10000 + 1 * (x 0).val = (k 0).val; omega
    | ⟨1, _⟩ => show win1_0.index t (1 : Fin 2) * 96 + 1 * (x 1).val = (k 1).val; omega
  · show win1_3.index t (0 : Fin 2) * 10000 + 1 * (j 0).val = win1_3.index t (0 : Fin 2) * 10000 + (j 0).val; omega
  · show win1_3.index t (1 : Fin 2) * 96 + 1 * (j 1).val = (j 1).val; omega

theorem mem_second (t : Fin cfg1.N) (i : S100000x96.Idx) :
    i ∈ ((cfg1.win 3).blk t).view.set ↔ ∀ a : Fin 2, win1_3.index t a * S10000x96.size a ≤ (i a).val
      ∧ (i a).val < win1_3.index t a * S10000x96.size a + S10000x96.size a := by
  show i ∈ ((View.whole main_v47).slice (win1_3.rect t)).set ↔ _
  rw [View.set_slice_whole, Rect.mem_set_unit]
  exact Iff.rfl

theorem cover_second (i : S100000x96.Idx) :
    ∃ t : Fin cfg1.N, (cfg1.win 3).flush t = true ∧ i ∈ ((cfg1.win 3).blk t).view.set := by
  have hi0 : (i 0).val < 100000 := (i 0).isLt
  have hi1 : (i 1).val < 96 := (i 1).isLt
  obtain ⟨t, ht⟩ := onto_second ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_second]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 96 ≤ (i 1).val ∧ (i 1).val < win1_3.index t (1 : Fin 2) * 96 + 96; omega

/-- The second kernel's output array after its ten points. -/
theorem second_product (c : Dev nD) :
    (dat1 (F := Ideal) V c).arrAt 3 cfg1.N = reluXWt (V c main_v45) (V c main_v46) (V c main_arg5) :=
  (dat1 (F := Ideal) V c).arrAt_eq_of_cover 3 _ (fun t _ => flushed_second V c t) cover_second

end Cert.KernelIdeal.Tiles

end
-- ==== Proof.LibDenseTile.lean ====
/-
  A dense layer with a rectifier, and two arrays laid side by side, computed on a tile of rows.

  A kernel that walks the rows of an [M, K] array X in tiles computes, on the tile whose rows are rows o, o + 1, … of
  X, the product of the tile with a [K, N] array W into a zero accumulator, adds the one row B to every row, takes
  the maximum with zero and changes the float format. On the extended reals the change of format is the identity,
  and what the kernel leaves at row p, column c of the tile is the whole-array function
  `rowsBiasRelu (rowsProd X W) B` at row o + p, column c: a row of the result depends on that row of X only.

  `joinCols P Q` lays an [M, A] array and an [M, B] array side by side: column a < A of the result is column a of P,
  column A + b is column b of Q. A tile of rows of P beside the same tile of rows of Q is that tile of `joinCols P Q`.
-/
import proofs.«110475_j50139448213989_1_alg».proof.Proof.LibTileRows
import proofs.«110475_j50139448213989_1_alg».proof.Proof.LibPlainDot

noncomputable section

namespace Cert.LibDenseTile

open Idealize.ShloMosaic Idealize.ShloMosaic.ValueIdx Cert.LibTileRows Cert.LibPlainDot

/-- The tile's dense layer with rectifier is the tile of the whole-array one. -/
theorem tile_denseRelu {Mb M K N : Nat} {φ₁ φ₂ ψ : FTy} (d : DotDims ⟨2, ![Mb, K]⟩ ⟨2, ![K, N]⟩ ⟨2, ![Mb, N]⟩) (hd : Plain d)
    (l : FVec Ideal ⟨2, ![Mb, K]⟩ φ₁) (r : FVec Ideal ⟨2, ![K, N]⟩ φ₂) (b : FVec Ideal ⟨2, ![1, N]⟩ .f32)
    (hb : (⟨2, ![1, N]⟩ : Shape).Broadcasts ⟨2, ![Mb, N]⟩) (hψ : ψ.bits < FTy.f32.bits)
    (X : (⟨2, ![M, K]⟩ : Shape).Idx → EReal) (W : (⟨2, ![K, N]⟩ : Shape).Idx → EReal)
    (B : (⟨2, ![1, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x) (hB : ∀ x, b x = B x)
    (y : (⟨2, ![Mb, N]⟩ : Shape).Idx) (i : (⟨2, ![M, N]⟩ : Shape).Idx)
    (hi0 : (i 0).val = o + (y 0).val) (hi1 : (i 1).val = (y 1).val) :
    (truncf ψ (maximumf (addf (matmul d none l r (constant ⟨2, ![Mb, N]⟩ .f32 0x00000000#32)) (broadcastTo ⟨2, ![Mb, N]⟩ b hb))
        (broadcast ⟨2, ![Mb, N]⟩ (Scalar.ofBits .f32 0x00000000#32))) hψ : FVec Ideal ⟨2, ![Mb, N]⟩ ψ) y
      = rowsBiasRelu (rowsProd X W) B i := by
  show max (matmul d none l r (constant ⟨2, ![Mb, N]⟩ .f32 0x00000000#32) y + broadcastTo ⟨2, ![Mb, N]⟩ b hb y)
      (Ideal.ofBits .f32 0x00000000#32) = max (rowsBias (rowsProd X W) B i) (Ideal.ofBits .f32 0x00000000#32)
  rw [tile_rowsBias _ b hb (rowsProd X W) B o
    (fun x k e0 e1 => tile_rowsProd d hd.rank hd.size hd.lhs0 hd.lhs1 hd.rhs0 hd.rhs1 none l r X W o hX hW x k e0 e1)
    hB y i hi0 hi1]

/-- The tile's plain product plus a bias row is the tile of the whole-array one. -/
theorem tile_dense {Mb M K N : Nat} {φ₁ φ₂ : FTy} (d : DotDims ⟨2, ![Mb, K]⟩ ⟨2, ![K, N]⟩ ⟨2, ![Mb, N]⟩) (hd : Plain d)
    (l : FVec Ideal ⟨2, ![Mb, K]⟩ φ₁) (r : FVec Ideal ⟨2, ![K, N]⟩ φ₂) (b : FVec Ideal ⟨2, ![1, N]⟩ .f32)
    (hb : (⟨2, ![1, N]⟩ : Shape).Broadcasts ⟨2, ![Mb, N]⟩)
    (X : (⟨2, ![M, K]⟩ : Shape).Idx → EReal) (W : (⟨2, ![K, N]⟩ : Shape).Idx → EReal)
    (B : (⟨2, ![1, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x) (hB : ∀ x, b x = B x)
    (y : (⟨2, ![Mb, N]⟩ : Shape).Idx) (i : (⟨2, ![M, N]⟩ : Shape).Idx)
    (hi0 : (i 0).val = o + (y 0).val) (hi1 : (i 1).val = (y 1).val) :
    (addf (matmul d none l r (constant ⟨2, ![Mb, N]⟩ .f32 0x00000000#32)) (broadcastTo ⟨2, ![Mb, N]⟩ b hb) : FVec Ideal ⟨2, ![Mb, N]⟩ .f32) y
      = rowsBias (rowsProd X W) B i :=
  tile_rowsBias _ b hb (rowsProd X W) B o
    (fun x k e0 e1 => tile_rowsProd d hd.rank hd.size hd.lhs0 hd.lhs1 hd.rhs0 hd.rhs1 none l r X W o hX hW x k e0 e1)
    hB y i hi0 hi1

/-- Two arrays with the same rows laid side by side (columns past both are zero; there are none when C = A + B). -/
def joinCols {M A B C : Nat} (P : (⟨2, ![M, A]⟩ : Shape).Idx → EReal) (Q : (⟨2, ![M, B]⟩ : Shape).Idx → EReal) :
    (⟨2, ![M, C]⟩ : Shape).Idx → EReal :=
  fun i => if h : (i 1).val < A then P (ix2 (i 0) ⟨(i 1).val, h⟩)
    else if h' : (i 1).val - A < B then Q (ix2 (i 0) ⟨(i 1).val - A, h'⟩) else 0

/-- A tile of rows of P beside the same tile of rows of Q is that tile of `joinCols P Q`. -/
theorem tile_joinCols {Mb M A B C : Nat} (p : (⟨2, ![Mb, A]⟩ : Shape).Idx → EReal) (q : (⟨2, ![Mb, B]⟩ : Shape).Idx → EReal)
    (hc : Shape.Concatenates [⟨2, ![Mb, A]⟩, ⟨2, ![Mb, B]⟩] ⟨2, ![Mb, C]⟩ 1) (hC : C = A + B)
    (P : (⟨2, ![M, A]⟩ : Shape).Idx → EReal) (Q : (⟨2, ![M, B]⟩ : Shape).Idx → EReal) (o : Nat)
    (hP : ∀ (x : (⟨2, ![Mb, A]⟩ : Shape).Idx) (k : (⟨2, ![M, A]⟩ : Shape).Idx),
      (k 0).val = o + (x 0).val → (k 1).val = (x 1).val → p x = P k)
    (hQ : ∀ (x : (⟨2, ![Mb, B]⟩ : Shape).Idx) (k : (⟨2, ![M, B]⟩ : Shape).Idx),
      (k 0).val = o + (x 0).val → (k 1).val = (x 1).val → q x = Q k)
    (y : (⟨2, ![Mb, C]⟩ : Shape).Idx) (i : (⟨2, ![M, C]⟩ : Shape).Idx)
    (hi0 : (i 0).val = o + (y 0).val) (hi1 : (i 1).val = (y 1).val) :
    concatenate ⟨2, ![Mb, C]⟩ 1 [⟨⟨2, ![Mb, A]⟩, p⟩, ⟨⟨2, ![Mb, B]⟩, q⟩] hc y = joinCols P Q i := by
  have hy1 : (y 1).val < C := idx2_lt1 y
  unfold joinCols
  by_cases h : (y 1).val < A
  · have h' : (i 1).val < A := by omega
    rw [dif_pos h', concatenate_pair_apply_left (1 : Fin 2) p q hc y rfl (ix2 (y 0) ⟨(y 1).val, h⟩)
      (fun b => by match b with | ⟨0, _⟩ => rfl | ⟨1, _⟩ => rfl)]
    exact hP _ _ hi0 hi1
  · have h' : ¬ (i 1).val < A := by omega
    have h2 : (y 1).val - A < B := by omega
    have h2' : (i 1).val - A < B := by omega
    rw [dif_neg h', dif_pos h2', concatenate_pair_apply_right (1 : Fin 2) p q hc y rfl rfl (ix2 (y 0) ⟨(y 1).val - A, h2⟩)
      (fun b hb => by match b with | ⟨0, _⟩ => rfl | ⟨1, _⟩ => exact absurd rfl hb)
      (by show (y 1).val - A + A = (y 1).val; omega)]
    exact hQ _ _ hi0 (by show (i 1).val - A = (y 1).val - A; omega)

end Cert.LibDenseTile

end
-- ==== Proof.Head.lean ====
/-
  The read-out head, fused with the second layer's bias and rectifier, tile by tile.

  The third kernel walks the 100000 rows of the second aggregation C in ten tiles of 10000 rows. On each tile it adds
  the bias row b2 to every row, takes the maximum with zero, multiplies by the transpose of the head's one row of
  weights into a zero accumulator, and adds the head's bias to the resulting column. Each step acts on a row
  independently of the others, so the tile with rows 10000·t, … leaves those rows of the one column
  max(C + b2, 0) · Wfcᵀ + bfc, and the ten tiles cover every row.
-/
import proofs.«110475_j50139448213989_1_alg».proof.Proof.SecondProduct
import proofs.«110475_j50139448213989_1_alg».proof.Proof.LibDenseTile

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.SL.Sem Idealize.ShloMosaic.Pipeline Cert.LibTileRows Cert.LibPlainDot Cert.LibDenseTile

/-- The head's tile-sized product has plain dimension numbers. -/
theorem plain_head : Plain dot_S10000x96_S96x1_S10000x1_1_0_0_1_n_n := ⟨rfl, rfl, rfl, rfl, rfl, rfl⟩

/-- max(C + b, 0) · wᵀ + β: the column over the nodes, w the head's one row of weights and β its bias. -/
def headOf (C : S100000x96.Idx → EReal) (B : S1x96.Idx → EReal) (w : S1x96.Idx → EReal) (β : S1x1.Idx → EReal) :
    S100000x1.Idx → EReal :=
  rowsBias (rowsProd (rowsBiasRelu C B) (transpose S96x1 [1, 0] w transposes_S1x96_p1_0_S96x1)) β

/-- The body's one stored value on a tile of rows is that tile of the head's column. -/
theorem head_tile (v0 : Vec Ideal S10000x96 .f32) (v2 : Vec Ideal S1x96 .f32) (v9 : Vec Ideal S1x96 .f32) (v13 : Vec Ideal S1x1 .f32)
    (C : S100000x96.Idx → EReal) (o : Nat)
    (hC : ∀ (x : S10000x96.Idx) (k : S100000x96.Idx), (k 0).val = o + (x 0).val → (k 1).val = (x 1).val → v0 x = C k)
    (y : S10000x1.Idx) (i : S100000x1.Idx) (hi0 : (i 0).val = o + (y 0).val) (hi1 : (i 1).val = (y 1).val) :
    k2_pay1 (F := Ideal) v0 v2 v9 v13 y = headOf C v2 v9 v13 i := by
  unfold k2_pay1 headOf
  rw [shapeCast_self v13]
  exact tile_dense dot_S10000x96_S96x1_S10000x1_1_0_0_1_n_n plain_head _ _ v13 broadcasts_S1x1_S10000x1
    (rowsBiasRelu C v2) _ v13 o (fun x k h0 h1 => biasRelu_tile v0 v2 C o hC x k h0 h1) (fun _ => rfl) (fun _ => rfl)
    y i hi0 hi1

/-- The printed index maps over the grid: the tile of C moves with the output's tile, the three small operands stay. -/
theorem idx_head : ∀ t : Fin cfg2.N, win2_0.index t (0 : Fin 2) = win2_4.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 9 :=
  (by decide +kernel : ∀ t : Fin grid2.N, _)

theorem onto_head : ∀ q : Fin 10, ∃ t : Fin cfg2.N, win2_4.index t = ![q.val, 0] :=
  (by decide +kernel : ∀ q : Fin 10, ∃ t : Fin grid2.N, win2_4.index t = ![q.val, 0])

variable (V : (c : Dev nD) → (b : Ref sig .tc) → Buf (Elt Ideal) ((c : Thread nD τ).loc b))

/-- What point t writes back is tile t of the head's column, the four arrays as the region finds them. -/
theorem flushed_head (c : Dev nD) (t : Fin cfg2.N) :
    (dat2 (F := Ideal) V c).flushed 4 t
      = ((cfg2.win 4).blk t).view.read (Elt Ideal) (headOf (V c main_v60) (V c main_v61) (V c main_arg7) (V c main_v62)) := by
  show (cfg2.win 4).cut (grid2.coords t) ((dat2 V c).after 4 t) = _
  rw [after2_4]
  unfold out2_4
  rw [View.canon_unit_zero hz]
  simp only [View.ld_unit_zero (S := S10000x96) hz, View.ld_unit_zero (S := S1x96) hz, View.ld_unit_zero (S := S1x1) hz]
  obtain ⟨e0, e1, e2, e3, e4, e5, e6, e7, e8, e9⟩ := idx_head t
  funext j
  have hB : iblk2 V c 1 t = V c main_v61 := by
    funext x
    show V c main_v61 (((cfg2.win 1).blk t).view.emb x) = V c main_v61 x
    refine congrArg _ (funext fun a => Fin.ext ?_)
    match a with
    | ⟨0, _⟩ => show win2_1.index t (0 : Fin 2) * 1 + 1 * (x 0).val = (x 0).val; omega
    | ⟨1, _⟩ => show win2_1.index t (1 : Fin 2) * 96 + 1 * (x 1).val = (x 1).val; omega
  have hW : iblk2 V c 2 t = V c main_arg7 := by
    funext x
    show V c main_arg7 (((cfg2.win 2).blk t).view.emb x) = V c main_arg7 x
    refine congrArg _ (funext fun a => Fin.ext ?_)
    match a with
    | ⟨0, _⟩ => show win2_2.index t (0 : Fin 2) * 1 + 1 * (x 0).val = (x 0).val; omega
    | ⟨1, _⟩ => show win2_2.index t (1 : Fin 2) * 96 + 1 * (x 1).val = (x 1).val; omega
  have hβ : iblk2 V c 3 t = V c main_v62 := by
    funext x
    show V c main_v62 (((cfg2.win 3).blk t).view.emb x) = V c main_v62 x
    refine congrArg _ (funext fun a => Fin.ext ?_)
    match a with
    | ⟨0, _⟩ => show win2_3.index t (0 : Fin 2) * 1 + 1 * (x 0).val = (x 0).val; omega
    | ⟨1, _⟩ => show win2_3.index t (1 : Fin 2) * 1 + 1 * (x 1).val = (x 1).val; omega
  show k2_pay1 (F := Ideal) (iblk2 V c 0 t) (iblk2 V c 1 t) (iblk2 V c 2 t) (iblk2 V c 3 t) j
    = headOf (V c main_v60) (V c main_v61) (V c main_arg7) (V c main_v62) (((cfg2.win 4).blk t).view.emb j)
  rw [hB, hW, hβ]
  refine head_tile (iblk2 V c 0 t) (V c main_v61) (V c main_arg7) (V c main_v62) (V c main_v60)
    (win2_4.index t (0 : Fin 2) * 10000) ?_ j (((cfg2.win 4).blk t).view.emb j) ?_ ?_
  · intro x k h0 h1
    show V c main_v60 (((cfg2.win 0).blk t).view.emb x) = V c main_v60 k
    refine congrArg _ (funext fun a => Fin.ext ?_)
    match a with
    | ⟨0, _⟩ => show win2_0.index t (0 : Fin 2) * 10000 + 1 * (x 0).val = (k 0).val; omega
    | ⟨1, _⟩ => show win2_0.index t (1 : Fin 2) * 96 + 1 * (x 1).val = (k 1).val; omega
  · show win2_4.index t (0 : Fin 2) * 10000 + 1 * (j 0).val = win2_4.index t (0 : Fin 2) * 10000 + (j 0).val; omega
  · show win2_4.index t (1 : Fin 2) * 1 + 1 * (j 1).val = (j 1).val; omega

theorem mem_head (t : Fin cfg2.N) (i : S100000x1.Idx) :
    i ∈ ((cfg2.win 4).blk t).view.set ↔ ∀ a : Fin 2, win2_4.index t a * S10000x1.size a ≤ (i a).val
      ∧ (i a).val < win2_4.index t a * S10000x1.size a + S10000x1.size a := by
  show i ∈ ((View.whole main_v63).slice (win2_4.rect t)).set ↔ _
  rw [View.set_slice_whole, Rect.mem_set_unit]
  exact Iff.rfl

theorem cover_head (i : S100000x1.Idx) :
    ∃ t : Fin cfg2.N, (cfg2.win 4).flush t = true ∧ i ∈ ((cfg2.win 4).blk t).view.set := by
  have hi0 : (i 0).val < 100000 := (i 0).isLt
  have hi1 : (i 1).val < 1 := (i 1).isLt
  obtain ⟨t, ht⟩ := onto_head ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_head]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 1 ≤ (i 1).val ∧ (i 1).val < win2_4.index t (1 : Fin 2) * 1 + 1; omega

/-- The third kernel's output array after its ten points. -/
theorem head_column (c : Dev nD) :
    (dat2 (F := Ideal) V c).arrAt 4 cfg2.N = headOf (V c main_v60) (V c main_v61) (V c main_arg7) (V c main_v62) :=
  (dat2 (F := Ideal) V c).arrAt_eq_of_cover 4 _ (fun t _ => flushed_head V c t) cover_head

end Cert.KernelIdeal.Tiles

end
-- ==== Proof.LibRowOfVector.lean ====
/-
  A vector laid out as a one-row array, two spellings.

  A vector of N entries reshaped to a [1, N] array and the same vector broadcast into a [1, N] array along a new
  leading axis (the vector's one axis sent to axis 1) are the same array: entry (0, j) is the vector's entry j.
-/
import Idealize.ShloMosaic.Lib.Pipeline.Value

noncomputable section

namespace Cert.LibRowOfVector

open Idealize.ShloMosaic

/-- The reshape of a vector to one row is its broadcast along a new leading axis. -/
theorem reshape_eq_broadcast {α : Type} {N : Nat} (b : (⟨1, ![N]⟩ : Shape).Idx → α)
    (hs : (⟨1, ![N]⟩ : Shape).ShapeCasts ⟨2, ![1, N]⟩)
    (hb : (⟨1, ![N]⟩ : Shape).BroadcastsInDim ⟨2, ![1, N]⟩ ![1]) :
    shapeCast ⟨2, ![1, N]⟩ b hs = broadcastInDim ⟨2, ![1, N]⟩ ![1] hb b := by
  funext j
  rw [shapeCast_addUnit_apply ![N] b hs j, broadcastInDim_apply ![1] hb b j (fun a => j a.succ) ?_]
  intro a
  match a with
  | ⟨0, _⟩ =>
    show (j 1).val = if N = 1 then 0 else (j 1).val
    split
    · have h1 : (j 1).val < N := (j 1).isLt
      omega
    · rfl

end Cert.LibRowOfVector

end
-- ==== Proof.HostSpelling.lean ====
/-
  The kernels' whole-array functions in the host's spelling.

  The three kernels leave x · W1ᵀ, max(C + b1, 0) · W2ᵀ and max(C + b2, 0) · Wfcᵀ + bfc, written as sums over the
  contracted axis and as a row added to every row. On the extended reals the host's matrix product with plain
  dimension numbers is that sum, a row broadcast along axis 0 and added is that row added to every row, the maximum
  with a broadcast zero is the rectifier, and a bias vector reshaped to one row is the vector broadcast along a new
  leading axis. So the three functions are `dense`, `dense` after `biasRelu`, and `readout` after `biasRelu` of the
  network's specification.
-/
import proofs.«110475_j50139448213989_1_alg».proof.Proof.Head
import proofs.«110475_j50139448213989_1_alg».proof.Proof.GcnSpec
import proofs.«110475_j50139448213989_1_alg».proof.Proof.LibRowOfVector

set_option maxRecDepth 16384

noncomputable section

namespace Cert.Bridge

open Cert.ReferenceIdeal Cert.ReferenceIdeal.Gen Cert.ReferenceIdeal.Read Idealize.ShloMosaic Idealize.ShloMosaic.TcCoe
open Cert.KernelIdeal.Tiles Cert.Gcn Cert.LibTileRows Cert.LibPlainDot Cert.LibRowOfVector

/-- The reference's whole-array products have plain dimension numbers. -/
theorem plain_whole : Plain dot_S100000x96_S96x96_S100000x96_1_0_0_1_n_n := ⟨rfl, rfl, rfl, rfl, rfl, rfl⟩
theorem plain_wholeHead : Plain dot_S100000x96_S96x1_S100000x1_1_0_0_1_n_n := ⟨rfl, rfl, rfl, rfl, rfl, rfl⟩

/-- x · Wᵀ is the host's product of x with the transposed W. -/
theorem xWt_eq_dense (X : FVec Ideal ⟨2, ![100000, 96]⟩ .f32) (W : FVec Ideal ⟨2, ![96, 96]⟩ .f32) :
    xWt X W = dense X W := by
  unfold xWt dense
  rw [rowsProd_eq_dot dot_S100000x96_S96x96_S100000x96_1_0_0_1_n_n plain_whole.rank plain_whole.size plain_whole.lhs0
    plain_whole.lhs1 plain_whole.rhs0 plain_whole.rhs1]
  rfl

/-- The bias row added to every row and the maximum with zero, the row given as the reshaped bias vector, is the
    host's `biasRelu`. -/
theorem biasRelu_eq (C : FVec Ideal ⟨2, ![100000, 96]⟩ .f32) (b : FVec Ideal ⟨1, ![96]⟩ .f32)
    (hs : (⟨1, ![96]⟩ : Shape).ShapeCasts ⟨2, ![1, 96]⟩) :
    rowsBiasRelu C (shapeCast ⟨2, ![1, 96]⟩ b hs) = biasRelu C b := by
  rw [reshape_eq_broadcast b hs bcast_S96_S1x96_1,
    rowsBiasRelu_eq_max C _ bcast_S1x96_S100000x96_0_1 bcast_S_S100000x96]
  rfl

/-- max(C + b, 0) · Wᵀ is `dense` after `biasRelu`. -/
theorem reluXWt_eq (C : FVec Ideal ⟨2, ![100000, 96]⟩ .f32) (b : FVec Ideal ⟨1, ![96]⟩ .f32) (W : FVec Ideal ⟨2, ![96, 96]⟩ .f32)
    (hs : (⟨1, ![96]⟩ : Shape).ShapeCasts ⟨2, ![1, 96]⟩) :
    reluXWt C (shapeCast ⟨2, ![1, 96]⟩ b hs) W = dense (biasRelu C b) W := by
  unfold reluXWt
  rw [biasRelu_eq C b hs]
  exact xWt_eq_dense _ W

/-- The head's column laid out as a vector is `readout` after `biasRelu`. -/
theorem head_eq (C : FVec Ideal ⟨2, ![100000, 96]⟩ .f32) (b : FVec Ideal ⟨1, ![96]⟩ .f32) (w : FVec Ideal ⟨2, ![1, 96]⟩ .f32)
    (β : FVec Ideal ⟨1, ![1]⟩ .f32) (hs : (⟨1, ![96]⟩ : Shape).ShapeCasts ⟨2, ![1, 96]⟩)
    (hs1 : (⟨1, ![1]⟩ : Shape).ShapeCasts ⟨2, ![1, 1]⟩) (hv : (⟨2, ![100000, 1]⟩ : Shape).ShapeCasts ⟨1, ![100000]⟩) :
    shapeCast ⟨1, ![100000]⟩ (headOf C (shapeCast ⟨2, ![1, 96]⟩ b hs) w (shapeCast ⟨2, ![1, 1]⟩ β hs1)) hv
      = readout (biasRelu C b) w β := by
  unfold headOf readout
  rw [biasRelu_eq C b hs, reshape_eq_broadcast β hs1 bcast_S1_S1x1_1,
    rowsBias_eq_add _ _ bcast_S1x1_S100000x1_0_1,
    rowsProd_eq_dot dot_S100000x96_S96x1_S100000x1_1_0_0_1_n_n plain_wholeHead.rank plain_wholeHead.size plain_wholeHead.lhs0
      plain_wholeHead.lhs1 plain_wholeHead.rhs0 plain_wholeHead.rhs1]
  rfl

end Cert.Bridge

end
-- ==== Proof.KernelValue.lean ====
/-
  The kernel program's result, as the network of its arguments.

  The buffer contents at the program's nine boundaries are followed from the launch memory to the result: the graph
  data and the parameters stay in their buffers from the first kernel's entry on (no later stretch and no kernel writes
  them), each kernel's output array is its whole-array function of the arrays it was entered with, each stretch
  between kernels aggregates that array over the graph. Put in the host's spelling, the result buffer ends holding
  `Cert.Gcn.net` of the nine arguments.
-/
import proofs.«110475_j50139448213989_1_alg».proof.Proof.Gen.KernelIdeal.Frame
import proofs.«110475_j50139448213989_1_alg».proof.Proof.KernelHost
import proofs.«110475_j50139448213989_1_alg».proof.Proof.HostSpelling

set_option maxRecDepth 16384

noncomputable section

namespace Cert.KernelIdeal.Whole

open Cert.KernelIdeal Cert.KernelIdeal.Gen Cert.KernelIdeal.Host Cert.KernelIdeal.Tiles Cert.Bridge
open Idealize.ShloMosaic Idealize.ShloMosaic.TcCoe Idealize.SL.Sem

variable (m : (ℓ : Loc nD τ sig) → Buf (Elt Ideal) ℓ) (ρ : Dev nD → PrngReg) (c : Dev nD)

/-- The last boundary's contents at the result buffer: the network of the arguments as launched. -/
theorem result_is_net : W9 m ρ c (Proc.devRef .tc main_v64)
    = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  -- at the first kernel's entry: the graph data, and the parameters as launched
  have src3 : W3 m ρ c (Proc.devRef .tc main_v5) = Cert.ReferenceIdeal.Read.val_main_v7 (F := Ideal) (m ((c : Thread nD τ).loc main_arg1)) := graph_src (W0 m ρ c)
  have dst3 : W3 m ρ c (Proc.devRef .tc main_v6) = Cert.ReferenceIdeal.Read.val_main_v8 (F := Ideal) (m ((c : Thread nD τ).loc main_arg1)) := graph_dst (W0 m ρ c)
  have coef3 : W3 m ρ c (Proc.devRef .tc main_v31) = Cert.ReferenceIdeal.Read.val_main_v33 (F := Ideal) (m ((c : Thread nD τ).loc main_arg1)) (m ((c : Thread nD τ).loc main_arg2)) := graph_coef (W0 m ρ c)
  have p0_3 : W3 m ρ c (Proc.devRef .tc main_arg0) = (m ((c : Thread nD τ).loc main_arg0)) := graph_keeps_main_arg0 (W0 m ρ c)
  have p3_3 : W3 m ρ c (Proc.devRef .tc main_arg3) = (m ((c : Thread nD τ).loc main_arg3)) := graph_keeps_main_arg3 (W0 m ρ c)
  have p4_3 : W3 m ρ c (Proc.devRef .tc main_arg4) = (m ((c : Thread nD τ).loc main_arg4)) := graph_keeps_main_arg4 (W0 m ρ c)
  have p5_3 : W3 m ρ c (Proc.devRef .tc main_arg5) = (m ((c : Thread nD τ).loc main_arg5)) := graph_keeps_main_arg5 (W0 m ρ c)
  have p6_3 : W3 m ρ c (Proc.devRef .tc main_arg6) = (m ((c : Thread nD τ).loc main_arg6)) := graph_keeps_main_arg6 (W0 m ρ c)
  have p7_3 : W3 m ρ c (Proc.devRef .tc main_arg7) = (m ((c : Thread nD τ).loc main_arg7)) := graph_keeps_main_arg7 (W0 m ρ c)
  have p8_3 : W3 m ρ c (Proc.devRef .tc main_arg8) = (m ((c : Thread nD τ).loc main_arg8)) := graph_keeps_main_arg8 (W0 m ρ c)
  -- the first kernel leaves x · W1ᵀ and touches nothing else that is read later
  have xt1 : W4 m ρ c (Proc.devRef .tc main_v32) = xWt (m ((c : Thread nD τ).loc main_arg0)) (m ((c : Thread nD τ).loc main_arg3)) := by
    refine (W4_arr m ρ c 2).trans ?_
    rw [first_product (V3 m ρ) c]
    show xWt (W3 m ρ c (Proc.devRef .tc main_arg0)) (W3 m ρ c (Proc.devRef .tc main_arg3)) = _
    rw [p0_3, p3_3]
  have src4 : W4 m ρ c (Proc.devRef .tc main_v5) = _ := (W4_of_ne m ρ c main_v5 (by decide)).trans src3
  have dst4 : W4 m ρ c (Proc.devRef .tc main_v6) = _ := (W4_of_ne m ρ c main_v6 (by decide)).trans dst3
  have coef4 : W4 m ρ c (Proc.devRef .tc main_v31) = _ := (W4_of_ne m ρ c main_v31 (by decide)).trans coef3
  have p4_4 : W4 m ρ c (Proc.devRef .tc main_arg4) = (m ((c : Thread nD τ).loc main_arg4)) := (W4_of_ne m ρ c main_arg4 (by decide)).trans p4_3
  have p5_4 : W4 m ρ c (Proc.devRef .tc main_arg5) = (m ((c : Thread nD τ).loc main_arg5)) := (W4_of_ne m ρ c main_arg5 (by decide)).trans p5_3
  have p6_4 : W4 m ρ c (Proc.devRef .tc main_arg6) = (m ((c : Thread nD τ).loc main_arg6)) := (W4_of_ne m ρ c main_arg6 (by decide)).trans p6_3
  have p7_4 : W4 m ρ c (Proc.devRef .tc main_arg7) = (m ((c : Thread nD τ).loc main_arg7)) := (W4_of_ne m ρ c main_arg7 (by decide)).trans p7_3
  have p8_4 : W4 m ρ c (Proc.devRef .tc main_arg8) = (m ((c : Thread nD τ).loc main_arg8)) := (W4_of_ne m ρ c main_arg8 (by decide)).trans p8_3
  -- the first aggregation, and the first bias as a row
  have agg1 : W5 m ρ c (Proc.devRef .tc main_v45) = Cert.Gcn.aggregateAt (xWt (m ((c : Thread nD τ).loc main_arg0)) (m ((c : Thread nD τ).loc main_arg3))) (Cert.ReferenceIdeal.Read.val_main_v7 (F := Ideal) (m ((c : Thread nD τ).loc main_arg1)))
      (Cert.ReferenceIdeal.Read.val_main_v8 (F := Ideal) (m ((c : Thread nD τ).loc main_arg1))) (Cert.ReferenceIdeal.Read.val_main_v33 (F := Ideal) (m ((c : Thread nD τ).loc main_arg1)) (m ((c : Thread nD τ).loc main_arg2))) :=
    (gap1_aggregate (W4 m ρ c)).trans (by rw [xt1, src4, dst4, coef4])
  have row1 : W5 m ρ c (Proc.devRef .tc main_v46) = shapeCast S1x96 (m ((c : Thread nD τ).loc main_arg4)) shapeCasts_S96_S1x96 :=
    (gap1_row (W4 m ρ c)).trans (by rw [p4_4])
  have src5 : W5 m ρ c (Proc.devRef .tc main_v5) = _ := (gap1_keeps_main_v5 (W4 m ρ c)).trans src4
  have dst5 : W5 m ρ c (Proc.devRef .tc main_v6) = _ := (gap1_keeps_main_v6 (W4 m ρ c)).trans dst4
  have coef5 : W5 m ρ c (Proc.devRef .tc main_v31) = _ := (gap1_keeps_main_v31 (W4 m ρ c)).trans coef4
  have p5_5 : W5 m ρ c (Proc.devRef .tc main_arg5) = (m ((c : Thread nD τ).loc main_arg5)) := (gap1_keeps_main_arg5 (W4 m ρ c)).trans p5_4
  have p6_5 : W5 m ρ c (Proc.devRef .tc main_arg6) = (m ((c : Thread nD τ).loc main_arg6)) := (gap1_keeps_main_arg6 (W4 m ρ c)).trans p6_4
  have p7_5 : W5 m ρ c (Proc.devRef .tc main_arg7) = (m ((c : Thread nD τ).loc main_arg7)) := (gap1_keeps_main_arg7 (W4 m ρ c)).trans p7_4
  have p8_5 : W5 m ρ c (Proc.devRef .tc main_arg8) = (m ((c : Thread nD τ).loc main_arg8)) := (gap1_keeps_main_arg8 (W4 m ρ c)).trans p8_4
  -- the second kernel
  have xt2 : W6 m ρ c (Proc.devRef .tc main_v47) = reluXWt
      (Cert.Gcn.aggregateAt (xWt (m ((c : Thread nD τ).loc main_arg0)) (m ((c : Thread nD τ).loc main_arg3))) (Cert.ReferenceIdeal.Read.val_main_v7 (F := Ideal) (m ((c : Thread nD τ).loc main_arg1)))
        (Cert.ReferenceIdeal.Read.val_main_v8 (F := Ideal) (m ((c : Thread nD τ).loc main_arg1))) (Cert.ReferenceIdeal.Read.val_main_v33 (F := Ideal) (m ((c : Thread nD τ).loc main_arg1)) (m ((c : Thread nD τ).loc main_arg2))))
      (shapeCast S1x96 (m ((c : Thread nD τ).loc main_arg4)) shapeCasts_S96_S1x96) (m ((c : Thread nD τ).loc main_arg5)) := by
    refine (W6_arr m ρ c 3).trans ?_
    rw [second_product (V5 m ρ) c]
    show reluXWt (W5 m ρ c (Proc.devRef .tc main_v45)) (W5 m ρ c (Proc.devRef .tc main_v46)) (W5 m ρ c (Proc.devRef .tc main_arg5)) = _
    rw [agg1, row1, p5_5]
  have src6 : W6 m ρ c (Proc.devRef .tc main_v5) = _ := (W6_of_ne m ρ c main_v5 (by decide)).trans src5
  have dst6 : W6 m ρ c (Proc.devRef .tc main_v6) = _ := (W6_of_ne m ρ c main_v6 (by decide)).trans dst5
  have coef6 : W6 m ρ c (Proc.devRef .tc main_v31) = _ := (W6_of_ne m ρ c main_v31 (by decide)).trans coef5
  have p6_6 : W6 m ρ c (Proc.devRef .tc main_arg6) = (m ((c : Thread nD τ).loc main_arg6)) := (W6_of_ne m ρ c main_arg6 (by decide)).trans p6_5
  have p7_6 : W6 m ρ c (Proc.devRef .tc main_arg7) = (m ((c : Thread nD τ).loc main_arg7)) := (W6_of_ne m ρ c main_arg7 (by decide)).trans p7_5
  have p8_6 : W6 m ρ c (Proc.devRef .tc main_arg8) = (m ((c : Thread nD τ).loc main_arg8)) := (W6_of_ne m ρ c main_arg8 (by decide)).trans p8_5
  -- the second aggregation, the second bias as a row, the head's bias as a one-by-one array
  have agg2 : W7 m ρ c (Proc.devRef .tc main_v60) = (Cert.Gcn.aggregateAt (reluXWt (Cert.Gcn.aggregateAt (xWt (m ((c : Thread nD τ).loc main_arg0)) (m ((c : Thread nD τ).loc main_arg3))) (Cert.ReferenceIdeal.Read.val_main_v7 (F := Ideal) (m ((c : Thread nD τ).loc main_arg1))) (Cert.ReferenceIdeal.Read.val_main_v8 (F := Ideal) (m ((c : Thread nD τ).loc main_arg1))) (Cert.ReferenceIdeal.Read.val_main_v33 (F := Ideal) (m ((c : Thread nD τ).loc main_arg1)) (m ((c : Thread nD τ).loc main_arg2)))) (shapeCast S1x96 (m ((c : Thread nD τ).loc main_arg4)) shapeCasts_S96_S1x96) (m ((c : Thread nD τ).loc main_arg5))) (Cert.ReferenceIdeal.Read.val_main_v7 (F := Ideal) (m ((c : Thread nD τ).loc main_arg1))) (Cert.ReferenceIdeal.Read.val_main_v8 (F := Ideal) (m ((c : Thread nD τ).loc main_arg1))) (Cert.ReferenceIdeal.Read.val_main_v33 (F := Ideal) (m ((c : Thread nD τ).loc main_arg1)) (m ((c : Thread nD τ).loc main_arg2)))) :=
    (gap2_aggregate (W6 m ρ c)).trans (by rw [xt2, src6, dst6, coef6])
  have row2 : W7 m ρ c (Proc.devRef .tc main_v61) = shapeCast S1x96 (m ((c : Thread nD τ).loc main_arg6)) shapeCasts_S96_S1x96 :=
    (gap2_row (W6 m ρ c)).trans (by rw [p6_6])
  have bias2 : W7 m ρ c (Proc.devRef .tc main_v62) = shapeCast S1x1 (m ((c : Thread nD τ).loc main_arg8)) shapeCasts_S1_S1x1 :=
    (gap2_bias (W6 m ρ c)).trans (by rw [p8_6])
  have p7_7 : W7 m ρ c (Proc.devRef .tc main_arg7) = (m ((c : Thread nD τ).loc main_arg7)) := (gap2_keeps_main_arg7 (W6 m ρ c)).trans p7_6
  -- the third kernel, and the column laid out as a vector
  have col : W8 m ρ c (Proc.devRef .tc main_v63) = headOf (Cert.Gcn.aggregateAt (reluXWt (Cert.Gcn.aggregateAt (xWt (m ((c : Thread nD τ).loc main_arg0)) (m ((c : Thread nD τ).loc main_arg3))) (Cert.ReferenceIdeal.Read.val_main_v7 (F := Ideal) (m ((c : Thread nD τ).loc main_arg1))) (Cert.ReferenceIdeal.Read.val_main_v8 (F := Ideal) (m ((c : Thread nD τ).loc main_arg1))) (Cert.ReferenceIdeal.Read.val_main_v33 (F := Ideal) (m ((c : Thread nD τ).loc main_arg1)) (m ((c : Thread nD τ).loc main_arg2)))) (shapeCast S1x96 (m ((c : Thread nD τ).loc main_arg4)) shapeCasts_S96_S1x96) (m ((c : Thread nD τ).loc main_arg5))) (Cert.ReferenceIdeal.Read.val_main_v7 (F := Ideal) (m ((c : Thread nD τ).loc main_arg1))) (Cert.ReferenceIdeal.Read.val_main_v8 (F := Ideal) (m ((c : Thread nD τ).loc main_arg1))) (Cert.ReferenceIdeal.Read.val_main_v33 (F := Ideal) (m ((c : Thread nD τ).loc main_arg1)) (m ((c : Thread nD τ).loc main_arg2)))) (shapeCast S1x96 (m ((c : Thread nD τ).loc main_arg6)) shapeCasts_S96_S1x96) (m ((c : Thread nD τ).loc main_arg7))
      (shapeCast S1x1 (m ((c : Thread nD τ).loc main_arg8)) shapeCasts_S1_S1x1) := by
    refine (W8_arr m ρ c 4).trans ?_
    rw [head_column (V7 m ρ) c]
    show headOf (W7 m ρ c (Proc.devRef .tc main_v60)) (W7 m ρ c (Proc.devRef .tc main_v61)) (W7 m ρ c (Proc.devRef .tc main_arg7)) (W7 m ρ c (Proc.devRef .tc main_v62)) = _
    rw [agg2, row2, p7_7, bias2]
  refine (tail_vector (W8 m ρ c)).trans ?_
  rw [col]
  -- the same in the host's spelling
  rw [xWt_eq_dense, reluXWt_eq]
  exact head_eq _ _ _ _ _ _ _

end Cert.KernelIdeal.Whole

end
-- ==== Proof.lean ====
/-
  A two-layer graph convolution with a linear read-out, three fused tiled kernels against the plain program.

  Both programs build, from the edge list and the edge weights, the symmetric normalisation of the graph with a self
  loop per node, and both compute
      out = max(A(max(A(x · W1ᵀ) + b1, 0) · W2ᵀ) + b2, 0) · Wfcᵀ + bfc,
  where A gathers the rows of its argument at the edges' sources, scales them by the edges' coefficients and sums them
  at the edges' targets. The reference computes each step on the whole arrays, and builds the graph data once per
  layer. The kernel program builds the graph data once and computes the three dense steps in kernels that walk the
  100000 rows in ten tiles of 10000: x · W1ᵀ; the first bias and rectifier fused with the product by W2ᵀ; the second
  bias and rectifier fused with the head. A row of each of these depends on the same row of the input only, so a
  tile of rows of the result is the result of the tile, whatever the order of the tiles; the changes of float format
  inside the kernels are the identity on the extended reals, and a product accumulated into zero is the product. No
  law that needs finite values is used: the two results are the same function `Cert.Gcn.net` of the nine arguments.

  The frames: each kernel program's frame is the generated one; the reference's is its generated run with the result
  dropped. The ideal pass rewrote nothing, so `preserves` has nothing to state.
-/
import proofs.«110475_j50139448213989_1_alg».proof.Defs
import proofs.«110475_j50139448213989_1_alg».proof.Proof.Gen.Kernel
import proofs.«110475_j50139448213989_1_alg».proof.Proof.Gen.Kernel.Skeleton
import proofs.«110475_j50139448213989_1_alg».proof.Proof.Gen.Kernel.Launch
import proofs.«110475_j50139448213989_1_alg».proof.Proof.Gen.Kernel.Points
import proofs.«110475_j50139448213989_1_alg».proof.Proof.Gen.Kernel.Frame
import proofs.«110475_j50139448213989_1_alg».proof.Proof.Gen.KernelIdeal
import proofs.«110475_j50139448213989_1_alg».proof.Proof.Gen.KernelIdeal.Skeleton
import proofs.«110475_j50139448213989_1_alg».proof.Proof.Gen.KernelIdeal.Launch
import proofs.«110475_j50139448213989_1_alg».proof.Proof.Gen.KernelIdeal.Points
import proofs.«110475_j50139448213989_1_alg».proof.Proof.Gen.KernelIdeal.Frame
import proofs.«110475_j50139448213989_1_alg».proof.Proof.Gen.ReferenceIdeal
import proofs.«110475_j50139448213989_1_alg».proof.Proof.Gen.ReferenceIdeal.Run
import proofs.«110475_j50139448213989_1_alg».proof.Proof.Gen.ReferenceIdeal.Read
import proofs.«110475_j50139448213989_1_alg».proof.Proof.Gen.Pre_finite_inputs
import proofs.«110475_j50139448213989_1_alg».proof.Proof.GcnSpec
import proofs.«110475_j50139448213989_1_alg».proof.Proof.KernelRun
import proofs.«110475_j50139448213989_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the network of those arguments: the
    kernel program by following its boundaries (`result_is_net`), the reference by reading its stages
    (`reference_is_net`). -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.result_is_net m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v103_eq, Cert.Gcn.reference_is_net, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
